-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x56x56 : Shape := ⟨4, ![64, 256, 56, 56]⟩
abbrev S256x16 : Shape := ⟨2, ![256, 16]⟩
abbrev S_ : Shape := ⟨0, ![]⟩

class Facts : Prop where
  bcast_S_S64x256x56x56 : S_.BroadcastsInDim S64x256x56x56 (![] : Fin 0 → Fin S64x256x56x56.rank)
  reducesTo_S64x256x56x56_S_d0_1_2_3 : S64x256x56x56.ReducesTo [0, 1, 2, 3] S_
  h_S_ : 0 < S_.numel
  bcast_S_S256x16 : S_.BroadcastsInDim S256x16 (![] : Fin 0 → Fin S256x16.rank)
  reducesTo_S256x16_S_d0_1 : S256x16.ReducesTo [0, 1] S_

variable [Facts]

def fn {F : FTy → Type} [FloatOps F] (main_arg0 : FVec F S64x256x56x56 .f32) (main_arg1 : FVec F S256x16 .f32) : IVec S_ 1 :=
  let main_v0 : FVec F S64x256x56x56 .f32 := Host.absf main_arg0
  let main_cst : FVec F S_ .f32 := constant S_ .f32 0x7F800000#32
  let main_v1 : FVec F S64x256x56x56 .f32 := broadcastInDim S64x256x56x56 ![] bcast_S_S64x256x56x56 main_cst
  let main_v2 : IVec S64x256x56x56 1 := cmpf .olt main_v0 main_v1
  let main_c : IVec S_ 1 := constantI S_ 1 1#1
  let main_v3 : IVec S_ 1 := (fun x v => Host.reduce IntOp.andi x v reducesTo_S64x256x56x56_S_d0_1_2_3 h_S_) main_v2 main_c
  let main_v4 : FVec F S256x16 .f32 := Host.absf main_arg1
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  main_v8
-- ==== Kernel.lean ====
abbrev S64x256x56x56 : Shape := ⟨4, ![64, 256, 56, 56]⟩
abbrev S256x16 : Shape := ⟨2, ![256, 16]⟩
abbrev S256 : Shape := ⟨1, ![256]⟩
abbrev S8x256 : Shape := ⟨2, ![8, 256]⟩
abbrev S16 : Shape := ⟨1, ![16]⟩
abbrev S64x256 : Shape := ⟨2, ![64, 256]⟩
abbrev S8x128x56x56 : Shape := ⟨4, ![8, 128, 56, 56]⟩
abbrev S8x128 : Shape := ⟨2, ![8, 128]⟩
abbrev S8x128x56 : Shape := ⟨3, ![8, 128, 56]⟩
abbrev S_ : Shape := ⟨0, ![]⟩
abbrev S64 : Shape := ⟨1, ![64]⟩
abbrev S64x1 : Shape := ⟨2, ![64, 1]⟩
abbrev S256x1 : Shape := ⟨2, ![256, 1]⟩
abbrev S1 : Shape := ⟨1, ![1]⟩
abbrev S1x1 : Shape := ⟨2, ![1, 1]⟩
abbrev S256x8 : Shape := ⟨2, ![256, 8]⟩
abbrev S64x8 : Shape := ⟨2, ![64, 8]⟩
abbrev S16x1 : Shape := ⟨2, ![16, 1]⟩
abbrev S64x16 : Shape := ⟨2, ![64, 16]⟩
abbrev S16x256 : Shape := ⟨2, ![16, 256]⟩
abbrev S8x128x32x56 : Shape := ⟨4, ![8, 128, 32, 56]⟩
abbrev S8x128x1x1 : Shape := ⟨4, ![8, 128, 1, 1]⟩

abbrev nBuf : Space → Nat
  | .hbm => 79
  | .vmem => 10
  | .smem => 0
  | _ => 0

abbrev bufTy : (tb : Table) → Fin (tcTables nBuf tb) → BufTy
  | .hbm, ⟨0, _⟩ => ⟨S64x256x56x56, .f32⟩
  | .hbm, ⟨1, _⟩ => ⟨S256x16, .f32⟩
  | .hbm, ⟨2, _⟩ => ⟨S256, .i32⟩
  | .hbm, ⟨3, _⟩ => ⟨S8x256, .f32⟩
  | .hbm, ⟨4, _⟩ => ⟨S16, .i32⟩
  | .hbm, ⟨5, _⟩ => ⟨S64x256, .f32⟩
  | .hbm, ⟨6, _⟩ => ⟨S_, .i32⟩
  | .hbm, ⟨7, _⟩ => ⟨S_, .f32⟩
  | .hbm, ⟨8, _⟩ => ⟨S64x256, .f32⟩
  | .hbm, ⟨9, _⟩ => ⟨S64x256, .f32⟩
  | .hbm, ⟨10, _⟩ => ⟨S_, .f32⟩
  | .hbm, ⟨11, _⟩ => ⟨S64, .f32⟩
  | .hbm, ⟨12, _⟩ => ⟨S64x1, .f32⟩
  | .hbm, ⟨13, _⟩ => ⟨S64x1, .f32⟩
  | .hbm, ⟨14, _⟩ => ⟨S64x256, .f32⟩
  | .hbm, ⟨15, _⟩ => ⟨S64x256, .f32⟩
  | .hbm, ⟨16, _⟩ => ⟨S_, .i32⟩
  | .hbm, ⟨17, _⟩ => ⟨S256, .i32⟩
  | .hbm, ⟨18, _⟩ => ⟨S256, .i1⟩
  | .hbm, ⟨19, _⟩ => ⟨S_, .i32⟩
  | .hbm, ⟨20, _⟩ => ⟨S256, .i32⟩
  | .hbm, ⟨21, _⟩ => ⟨S256, .i32⟩
  | .hbm, ⟨22, _⟩ => ⟨S256, .i32⟩
  | .hbm, ⟨23, _⟩ => ⟨S256x1, .i32⟩
  | .hbm, ⟨24, _⟩ => ⟨S1, .i32⟩
  | .hbm, ⟨25, _⟩ => ⟨S_, .i32⟩
  | .hbm, ⟨26, _⟩ => ⟨S256x1, .i32⟩
  | .hbm, ⟨27, _⟩ => ⟨S256x1, .i1⟩
  | .hbm, ⟨28, _⟩ => ⟨S1x1, .i32⟩
  | .hbm, ⟨29, _⟩ => ⟨S256x1, .i32⟩
  | .hbm, ⟨30, _⟩ => ⟨S256x1, .i1⟩
  | .hbm, ⟨31, _⟩ => ⟨S256x1, .i1⟩
  | .hbm, ⟨32, _⟩ => ⟨S_, .i1⟩
  | .hbm, ⟨33, _⟩ => ⟨S256, .i1⟩
  | .hbm, ⟨34, _⟩ => ⟨S64x256, .f32⟩
  | .hbm, ⟨35, _⟩ => ⟨S64x256, .i1⟩
  | .hbm, ⟨36, _⟩ => ⟨S_, .f32⟩
  | .hbm, ⟨37, _⟩ => ⟨S64x256, .f32⟩
  | .hbm, ⟨38, _⟩ => ⟨S64x256, .f32⟩
  | .hbm, ⟨39, _⟩ => ⟨S64x256, .f32⟩
  | .hbm, ⟨40, _⟩ => ⟨S256x8, .f32⟩
  | .hbm, ⟨41, _⟩ => ⟨S64x8, .f32⟩
  | .hbm, ⟨42, _⟩ => ⟨S_, .i32⟩
  | .hbm, ⟨43, _⟩ => ⟨S16, .i32⟩
  | .hbm, ⟨44, _⟩ => ⟨S16, .i1⟩
  | .hbm, ⟨45, _⟩ => ⟨S_, .i32⟩
  | .hbm, ⟨46, _⟩ => ⟨S16, .i32⟩
  | .hbm, ⟨47, _⟩ => ⟨S16, .i32⟩
  | .hbm, ⟨48, _⟩ => ⟨S16, .i32⟩
  | .hbm, ⟨49, _⟩ => ⟨S16x1, .i32⟩
  | .hbm, ⟨50, _⟩ => ⟨S1, .i32⟩
  | .hbm, ⟨51, _⟩ => ⟨S_, .i32⟩
  | .hbm, ⟨52, _⟩ => ⟨S16x1, .i32⟩
  | .hbm, ⟨53, _⟩ => ⟨S16x1, .i1⟩
  | .hbm, ⟨54, _⟩ => ⟨S1x1, .i32⟩
  | .hbm, ⟨55, _⟩ => ⟨S16x1, .i32⟩
  | .hbm, ⟨56, _⟩ => ⟨S16x1, .i1⟩
  | .hbm, ⟨57, _⟩ => ⟨S16x1, .i1⟩
  | .hbm, ⟨58, _⟩ => ⟨S_, .i1⟩
  | .hbm, ⟨59, _⟩ => ⟨S16, .i1⟩
  | .hbm, ⟨60, _⟩ => ⟨S64x16, .f32⟩
  | .hbm, ⟨61, _⟩ => ⟨S64x16, .i1⟩
  | .hbm, ⟨62, _⟩ => ⟨S_, .f32⟩
  | .hbm, ⟨63, _⟩ => ⟨S64x16, .f32⟩
  | .hbm, ⟨64, _⟩ => ⟨S64x16, .f32⟩
  | .hbm, ⟨65, _⟩ => ⟨S_, .f32⟩
  | .hbm, ⟨66, _⟩ => ⟨S64x16, .f32⟩
  | .hbm, ⟨67, _⟩ => ⟨S64x16, .f32⟩
  | .hbm, ⟨68, _⟩ => ⟨S16x256, .f32⟩
  | .hbm, ⟨69, _⟩ => ⟨S64x256, .f32⟩
  | .hbm, ⟨70, _⟩ => ⟨S64x256, .f32⟩
  | .hbm, ⟨71, _⟩ => ⟨S64x256, .f32⟩
  | .hbm, ⟨72, _⟩ => ⟨S_, .f32⟩
  | .hbm, ⟨73, _⟩ => ⟨S64x256, .f32⟩
  | .hbm, ⟨74, _⟩ => ⟨S64x256, .f32⟩
  | .hbm, ⟨75, _⟩ => ⟨S_, .f32⟩
  | .hbm, ⟨76, _⟩ => ⟨S64x256, .f32⟩
  | .hbm, ⟨77, _⟩ => ⟨S64x256, .f32⟩
  | .hbm, ⟨78, _⟩ => ⟨S64x256x56x56, .f32⟩
  | .local _ .vmem, ⟨0, _⟩ => ⟨S8x128x56x56, .f32⟩
  | .local _ .vmem, ⟨1, _⟩ => ⟨S8x128x56x56, .f32⟩
  | .local _ .vmem, ⟨2, _⟩ => ⟨S8x128, .f32⟩
  | .local _ .vmem, ⟨3, _⟩ => ⟨S8x128, .f32⟩
  | .local _ .vmem, ⟨4, _⟩ => ⟨S8x128x32x56, .f32⟩
  | .local _ .vmem, ⟨5, _⟩ => ⟨S8x128x32x56, .f32⟩
  | .local _ .vmem, ⟨6, _⟩ => ⟨S8x128, .f32⟩
  | .local _ .vmem, ⟨7, _⟩ => ⟨S8x128, .f32⟩
  | .local _ .vmem, ⟨8, _⟩ => ⟨S8x128x32x56, .f32⟩
  | .local _ .vmem, ⟨9, _⟩ => ⟨S8x128x32x56, .f32⟩
  | _, _ => ⟨S64x256x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_call0_v0 : Ref sig .tc := ⟨.hbm, 7, rfl⟩
abbrev main_v1 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call2_c : Ref sig .tc := ⟨.hbm, 16, rfl⟩
abbrev main_call2_v0 : Ref sig .tc := ⟨.hbm, 17, rfl⟩
abbrev main_call2_v1 : Ref sig .tc := ⟨.hbm, 18, rfl⟩
abbrev main_call2_c_0 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_call2_v5 : Ref sig .tc := ⟨.hbm, 23, rfl⟩
abbrev main_call2_c_1 : Ref sig .tc := ⟨.hbm, 24, rfl⟩
abbrev main_call2_c_2 : Ref sig .tc := ⟨.hbm, 25, rfl⟩
abbrev main_call2_v6 : Ref sig .tc := ⟨.hbm, 26, rfl⟩
abbrev main_call2_v7 : Ref sig .tc := ⟨.hbm, 27, rfl⟩
abbrev main_call2_v8 : Ref sig .tc := ⟨.hbm, 28, rfl⟩
abbrev main_call2_v9 : Ref sig .tc := ⟨.hbm, 29, rfl⟩
abbrev main_call2_v10 : Ref sig .tc := ⟨.hbm, 30, rfl⟩
abbrev main_call2_v11 : Ref sig .tc := ⟨.hbm, 31, rfl⟩
abbrev main_call2_c_3 : Ref sig .tc := ⟨.hbm, 32, rfl⟩
abbrev main_call2_v12 : Ref sig .tc := ⟨.hbm, 33, rfl⟩
abbrev main_call2_v13 : Ref sig .tc := ⟨.hbm, 34, rfl⟩
abbrev main_call2_v14 : Ref sig .tc := ⟨.hbm, 35, rfl⟩
abbrev main_call2_cst : Ref sig .tc := ⟨.hbm, 36, rfl⟩
abbrev main_call2_v15 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_call3_c : Ref sig .tc := ⟨.hbm, 42, rfl⟩
abbrev main_call3_v0 : Ref sig .tc := ⟨.hbm, 43, rfl⟩
abbrev main_call3_v1 : Ref sig .tc := ⟨.hbm, 44, rfl⟩
abbrev main_call3_c_0 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_call3_v5 : Ref sig .tc := ⟨.hbm, 49, rfl⟩
abbrev main_call3_c_1 : Ref sig .tc := ⟨.hbm, 50, rfl⟩
abbrev main_call3_c_2 : Ref sig .tc := ⟨.hbm, 51, rfl⟩
abbrev main_call3_v6 : Ref sig .tc := ⟨.hbm, 52, rfl⟩
abbrev main_call3_v7 : Ref sig .tc := ⟨.hbm, 53, rfl⟩
abbrev main_call3_v8 : Ref sig .tc := ⟨.hbm, 54, rfl⟩
abbrev main_call3_v9 : Ref sig .tc := ⟨.hbm, 55, rfl⟩
abbrev main_call3_v10 : Ref sig .tc := ⟨.hbm, 56, rfl⟩
abbrev main_call3_v11 : Ref sig .tc := ⟨.hbm, 57, rfl⟩
abbrev main_call3_c_3 : Ref sig .tc := ⟨.hbm, 58, rfl⟩
abbrev main_call3_v12 : Ref sig .tc := ⟨.hbm, 59, rfl⟩
abbrev main_call3_v13 : Ref sig .tc := ⟨.hbm, 60, rfl⟩
abbrev main_call3_v14 : Ref sig .tc := ⟨.hbm, 61, rfl⟩
abbrev main_call3_cst : Ref sig .tc := ⟨.hbm, 62, rfl⟩
abbrev main_call3_v15 : Ref sig .tc := ⟨.hbm, 63, rfl⟩
abbrev main_v9 : Ref sig .tc := ⟨.hbm, 64, rfl⟩
abbrev main_call4_cst : Ref sig .tc := ⟨.hbm, 65, rfl⟩
abbrev main_call4_v0 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_cst_2 : Ref sig .tc := ⟨.hbm, 72, rfl⟩
abbrev main_v15 : Ref sig .tc := ⟨.hbm, 73, rfl⟩
abbrev main_v16 : Ref sig .tc := ⟨.hbm, 74, rfl⟩
abbrev main_cst_3 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨3, ![8, 2, 2], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S8x128x32x56 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S8x128x32x56 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

class Facts₀ : Prop where
  inb_S8x128x56x56_S8x128x56x56_0_0_0_0 : ∀ a, (![0, 0, 0, 0] : Fin 4 → Nat) a + S8x128x56x56.size a ≤ S8x128x56x56.size a
  h_S8x128x56x56 : 0 < S8x128x56x56.numel
  reduces_S8x128x56x56_S8x128x56 : S8x128x56x56.Reduces [3] S8x128x56
  reduces_S8x128x56_S8x128 : S8x128x56.Reduces [2] S8x128
  inb_S8x128_S8x128_0_0 : ∀ a, (![0, 0] : Fin 2 → Nat) a + S8x128.size a ≤ S8x128.size a
  h_S8x128 : 0 < S8x128.numel
  pads_S64x256_S64x256_000_000 : S64x256.Pads (![0, 0] : Fin 2 → Nat) ![0, 0] ![0, 0] S64x256
  h_S_ : 0 < S_.numel
  reducesTo_S64x256_S64_d1 : S64x256.ReducesTo [1] S64
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  reducesTo_S256x1_S256_d1 : S256x1.ReducesTo [1] S256
  bcast_S256_S64x256_1 : S256.BroadcastsInDim S64x256 (![1] : Fin 1 → Fin S64x256.rank)
  bcast_S_S64x256 : S_.BroadcastsInDim S64x256 (![] : Fin 0 → Fin S64x256.rank)
  transposes_S8x256_S256x8_1_0 : S8x256.Transposes [1, 0] S256x8
  bcast_S_S16 : S_.BroadcastsInDim S16 (![] : Fin 0 → Fin S16.rank)
  bcast_S16_S16x1_0 : S16.BroadcastsInDim S16x1 (![0] : Fin 1 → Fin S16x1.rank)
  bcast_S_S16x1 : S_.BroadcastsInDim S16x1 (![] : Fin 0 → Fin S16x1.rank)
  bcast_S1x1_S16x1_0_1 : S1x1.BroadcastsInDim S16x1 (![0, 1] : Fin 2 → Fin S16x1.rank)
  reducesTo_S16x1_S16_d1 : S16x1.ReducesTo [1] S16
  bcast_S16_S64x16_1 : S16.BroadcastsInDim S64x16 (![1] : Fin 1 → Fin S64x16.rank)
  bcast_S_S64x16 : S_.BroadcastsInDim S64x16 (![] : Fin 0 → Fin S64x16.rank)
  transposes_S256x16_S16x256_1_0 : S256x16.Transposes [1, 0] S16x256
  shapeCasts_S8x128_S8x128 : S8x128.ShapeCasts S8x128
  inb_S8x128x32x56_S8x128x32x56_0_0_0_0 : ∀ a, (![0, 0, 0, 0] : Fin 4 → Nat) a + S8x128x32x56.size a ≤ S8x128x32x56.size a
  h_S8x128x32x56 : 0 < S8x128x32x56.numel
  shapeCasts_S8x128_S8x128x1x1 : S8x128.ShapeCasts S8x128x1x1
  broadcasts_S8x128x1x1_S8x128x32x56 : S8x128x1x1.Broadcasts S8x128x32x56
  gather_S64x256_S256x1_S64x256_0_1_n_n_1_1_641_wf : GatherDims.WF S64x256 S256x1 S64x256 [0] [1] [] [1] [] 1 ![64, 1]
  dot_S64x256_S256x8_S64x8_1_0_0_1_n_n_wf : DotDims.WF S64x256 S256x8 S64x8 [1] [0] [0] [1] [] []
  gather_S64x8_S16x1_S64x16_0_1_n_n_1_1_641_wf : GatherDims.WF S64x8 S16x1 S64x16 [0] [1] [] [1] [] 1 ![64, 1]
  dot_S64x16_S16x256_S64x256_1_0_0_1_n_n_wf : DotDims.WF S64x16 S16x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x56x56.size a ≤ S64x256x56x56.size a
  hwx0_0 : ∀ i : grid0.Coords, EltTy.bits .f32 = 32 ∨ (Rect.block (s := S64x256x56x56) S8x128x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x256.size a
  hwx0_1 : ∀ i : grid0.Coords, EltTy.bits .f32 = 32 ∨ (Rect.block (s := S64x256) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S8x128x32x56.size a < S64x256x56x56.size a
  hwx1_0 : ∀ i : grid1.Coords, EltTy.bits .f32 = 32 ∨ (Rect.unit (s := S64x256x56x56) (fun a => cc1_transform_0 i a * S8x128x32x56.size a) (fun a => (Pipeline.Clip.of (cc1_transform_0 i a) (S8x128x32x56.size a) (S64x256x56x56.size a)).extent (S8x128x32x56.size a)) fun a => Pipeline.Clip.inb (Pipeline.Clip.ok_of (hstart1_0 i a))).WholeWords (EltTy.packing .f32)
  hwxs1_0 : ∀ i : grid1.Coords, EltTy.bits .f32 = 32 ∨ (Rect.unit (s := S8x128x32x56) (fun _ => 0) (fun a => (Pipeline.Clip.of (cc1_transform_0 i a) (S8x128x32x56.size a) (S64x256x56x56.size a)).extent (S8x128x32x56.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x128.size a ≤ S64x256.size a
  hwx1_1 : ∀ i : grid1.Coords, EltTy.bits .f32 = 32 ∨ (Rect.block (s := S64x256) S8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S8x128x32x56.size a < S64x256x56x56.size a
  hwx1_2 : ∀ i : grid1.Coords, EltTy.bits .f32 = 32 ∨ (Rect.unit (s := S64x256x56x56) (fun a => cc1_transform_2 i a * S8x128x32x56.size a) (fun a => (Pipeline.Clip.of (cc1_transform_2 i a) (S8x128x32x56.size a) (S64x256x56x56.size a)).extent (S8x128x32x56.size a)) fun a => Pipeline.Clip.inb (Pipeline.Clip.ok_of (hstart1_2 i a))).WholeWords (EltTy.packing .f32)
  hwxs1_2 : ∀ i : grid1.Coords, EltTy.bits .f32 = 32 ∨ (Rect.unit (s := S8x128x32x56) (fun _ => 0) (fun a => (Pipeline.Clip.of (cc1_transform_2 i a) (S8x128x32x56.size a) (S64x256x56x56.size a)).extent (S8x128x32x56.size a)) fun a => (Nat.zero_add _).trans_le (Pipeline.Clip.extent_le (Pipeline.Clip.ok_of (hstart1_2 i a)))).WholeWords (EltTy.packing .f32)

variable [Facts₀]

def gather_S64x256_S256x1_S64x256_0_1_n_n_1_1_641 : GatherDims S64x256 S256x1 S64x256 where
  offsetDims := [0]
  collapsedSliceDims := [1]
  operandBatchingDims := []
  startIndicesBatchingDims := []
  startIndexMap := [1]
  indexVectorDim := 1
  sliceSizes := ![64, 1]
  wf := gather_S64x256_S256x1_S64x256_0_1_n_n_1_1_641_wf
def dot_S64x256_S256x8_S64x8_1_0_0_1_n_n : DotDims S64x256 S256x8 S64x8 where
  lhsContracting := [1]
  rhsContracting := [0]
  lhsNonContracting := [0]
  rhsNonContracting := [1]
  lhsBatch := []
  rhsBatch := []
  wf := dot_S64x256_S256x8_S64x8_1_0_0_1_n_n_wf
def gather_S64x8_S16x1_S64x16_0_1_n_n_1_1_641 : GatherDims S64x8 S16x1 S64x16 where
  offsetDims := [0]
  collapsedSliceDims := [1]
  operandBatchingDims := []
  startIndicesBatchingDims := []
  startIndexMap := [1]
  indexVectorDim := 1
  sliceSizes := ![64, 1]
  wf := gather_S64x8_S16x1_S64x16_0_1_n_n_1_1_641_wf
def dot_S64x16_S16x256_S64x256_1_0_0_1_n_n : DotDims S64x16 S16x256 S64x256 where
  lhsContracting := [1]
  rhsContracting := [0]
  lhsNonContracting := [0]
  rhsNonContracting := [1]
  lhsBatch := []
  rhsBatch := []
  wf := dot_S64x16_S16x256_S64x256_1_0_0_1_n_n_wf

abbrev win0_0 : Pipeline.Window sig grid0 :=
  Pipeline.Window.ofSpec (Memref.whole main_arg0) S8x128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpecClip (Memref.whole main_arg0) S8x128x32x56.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v18) S8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpecClip (Memref.whole main_v19) S8x128x32x56.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x256x56x56 : Shape := ⟨4, ![64, 256, 56, 56]⟩
abbrev S256x16 : Shape := ⟨2, ![256, 16]⟩
abbrev S256 : Shape := ⟨1, ![256]⟩
abbrev S256x8 : Shape := ⟨2, ![256, 8]⟩
abbrev S16 : Shape := ⟨1, ![16]⟩
abbrev S_ : Shape := ⟨0, ![]⟩
abbrev S64x256 : Shape := ⟨2, ![64, 256]⟩
abbrev S64 : Shape := ⟨1, ![64]⟩
abbrev S64x1 : Shape := ⟨2, ![64, 1]⟩
abbrev S256x1 : Shape := ⟨2, ![256, 1]⟩
abbrev S64x8 : Shape := ⟨2, ![64, 8]⟩
abbrev S16x1 : Shape := ⟨2, ![16, 1]⟩
abbrev S64x16 : Shape := ⟨2, ![64, 16]⟩
abbrev S16x256 : Shape := ⟨2, ![16, 256]⟩
abbrev S64x256x1x1 : Shape := ⟨4, ![64, 256, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S64x256x56x56, .f32⟩
  | .hbm, ⟨1, _⟩ => ⟨S256x16, .f32⟩
  | .hbm, ⟨2, _⟩ => ⟨S256, .i32⟩
  | .hbm, ⟨3, _⟩ => ⟨S256, .i1⟩
  | .hbm, ⟨4, _⟩ => ⟨S256x8, .f32⟩
  | .hbm, ⟨5, _⟩ => ⟨S16, .i32⟩
  | .hbm, ⟨6, _⟩ => ⟨S16, .i1⟩
  | .hbm, ⟨7, _⟩ => ⟨S_, .f32⟩
  | .hbm, ⟨8, _⟩ => ⟨S64x256, .f32⟩
  | .hbm, ⟨9, _⟩ => ⟨S_, .f32⟩
  | .hbm, ⟨10, _⟩ => ⟨S64x256, .f32⟩
  | .hbm, ⟨11, _⟩ => ⟨S64x256, .f32⟩
  | .hbm, ⟨12, _⟩ => ⟨S_, .i32⟩
  | .hbm, ⟨13, _⟩ => ⟨S_, .f32⟩
  | .hbm, ⟨14, _⟩ => ⟨S64x256, .f32⟩
  | .hbm, ⟨15, _⟩ => ⟨S64x256, .f32⟩
  | .hbm, ⟨16, _⟩ => ⟨S_, .f32⟩
  | .hbm, ⟨17, _⟩ => ⟨S64, .f32⟩
  | .hbm, ⟨18, _⟩ => ⟨S64x1, .f32⟩
  | .hbm, ⟨19, _⟩ => ⟨S64x1, .f32⟩
  | .hbm, ⟨20, _⟩ => ⟨S64x256, .f32⟩
  | .hbm, ⟨21, _⟩ => ⟨S64x256, .f32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S64x256, .f32⟩
  | .hbm, ⟨28, _⟩ => ⟨S64x256, .f32⟩
  | .hbm, ⟨29, _⟩ => ⟨S64x8, .f32⟩
  | .hbm, ⟨30, _⟩ => ⟨S_, .i32⟩
  | .hbm, ⟨31, _⟩ => ⟨S16, .i32⟩
  | .hbm, ⟨32, _⟩ => ⟨S16, .i32⟩
  | .hbm, ⟨33, _⟩ => ⟨S16, .i32⟩
  | .hbm, ⟨34, _⟩ => ⟨S16x1, .i32⟩
  | .hbm, ⟨35, _⟩ => ⟨S64x16, .f32⟩
  | .hbm, ⟨36, _⟩ => ⟨S_, .f32⟩
  | .hbm, ⟨37, _⟩ => ⟨S64x16, .f32⟩
  | .hbm, ⟨38, _⟩ => ⟨S64x16, .f32⟩
  | .hbm, ⟨39, _⟩ => ⟨S16x256, .f32⟩
  | .hbm, ⟨40, _⟩ => ⟨S64x256, .f32⟩
  | .hbm, ⟨41, _⟩ => ⟨S64x256, .f32⟩
  | .hbm, ⟨42, _⟩ => ⟨S64x256, .f32⟩
  | .hbm, ⟨43, _⟩ => ⟨S_, .f32⟩
  | .hbm, ⟨44, _⟩ => ⟨S64x256, .f32⟩
  | .hbm, ⟨45, _⟩ => ⟨S64x256, .f32⟩
  | .hbm, ⟨46, _⟩ => ⟨S_, .f32⟩
  | .hbm, ⟨47, _⟩ => ⟨S64x256, .f32⟩
  | .hbm, ⟨48, _⟩ => ⟨S64x256, .f32⟩
  | .hbm, ⟨49, _⟩ => ⟨S64x256x1x1, .f32⟩
  | .hbm, ⟨50, _⟩ => ⟨S64x256x56x56, .f32⟩
  | .hbm, ⟨51, _⟩ => ⟨S64x256x56x56, .f32⟩
  | _, _ => ⟨S64x256x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_cst : Ref sig .tc := ⟨.hbm, 4, rfl⟩
abbrev main_c_1 : Ref sig .tc := ⟨.hbm, 5, rfl⟩
abbrev main_c_2 : Ref sig .tc := ⟨.hbm, 6, rfl⟩
abbrev main_cst_3 : Ref sig .tc := ⟨.hbm, 7, rfl⟩
abbrev main_v0 : Ref sig .tc := ⟨.hbm, 8, rfl⟩
abbrev main_cst_4 : Ref sig .tc := ⟨.hbm, 9, rfl⟩
abbrev main_v1 : Ref sig .tc := ⟨.hbm, 10, rfl⟩
abbrev main_v2 : Ref sig .tc := ⟨.hbm, 11, rfl⟩
abbrev main_c_5 : Ref sig .tc := ⟨.hbm, 12, rfl⟩
abbrev main_call0_v0 : Ref sig .tc := ⟨.hbm, 13, rfl⟩
abbrev main_v3 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_7 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call2_cst : Ref sig .tc := ⟨.hbm, 36, rfl⟩
abbrev main_call2_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_8 : Ref sig .tc := ⟨.hbm, 43, rfl⟩
abbrev main_v24 : Ref sig .tc := ⟨.hbm, 44, rfl⟩
abbrev main_v25 : Ref sig .tc := ⟨.hbm, 45, rfl⟩
abbrev main_cst_9 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]

class Facts₀ : Prop where
  reducesTo_S64x256x56x56_S64x256_d2_3 : S64x256x56x56.ReducesTo [2, 3] S64x256
  h_S_ : 0 < S_.numel
  bcast_S_S64x256 : S_.BroadcastsInDim S64x256 (![] : Fin 0 → Fin S64x256.rank)
  pads_S64x256_S64x256_000_000 : S64x256.Pads (![0, 0] : Fin 2 → Nat) ![0, 0] ![0, 0] S64x256
  reducesTo_S64x256_S64_d1 : S64x256.ReducesTo [1] S64
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S_S256 : S_.BroadcastsInDim S256 (![] : Fin 0 → Fin S256.rank)
  bcast_S256_S256x1_0 : S256.BroadcastsInDim S256x1 (![0] : Fin 1 → Fin S256x1.rank)
  bcast_S_S16 : S_.BroadcastsInDim S16 (![] : Fin 0 → Fin S16.rank)
  bcast_S16_S16x1_0 : S16.BroadcastsInDim S16x1 (![0] : Fin 1 → Fin S16x1.rank)
  bcast_S_S64x16 : S_.BroadcastsInDim S64x16 (![] : Fin 0 → Fin S64x16.rank)
  transposes_S256x16_S16x256_1_0 : S256x16.Transposes [1, 0] S16x256
  bcast_S64x256_S64x256x1x1_0_1 : S64x256.BroadcastsInDim S64x256x1x1 (![0, 1] : Fin 2 → Fin S64x256x1x1.rank)
  bcast_S64x256x1x1_S64x256x56x56_0_1_2_3 : S64x256x1x1.BroadcastsInDim S64x256x56x56 (![0, 1, 2, 3] : Fin 4 → Fin S64x256x56x56.rank)
  gather_S64x256_S256x1_S64x256_0_1_n_n_1_1_641_wf : GatherDims.WF S64x256 S256x1 S64x256 [0] [1] [] [1] [] 1 ![64, 1]
  dot_S64x256_S256x8_S64x8_1_0_0_1_n_n_wf : DotDims.WF S64x256 S256x8 S64x8 [1] [0] [0] [1] [] []
  gather_S64x8_S16x1_S64x16_0_1_n_n_1_1_641_wf : GatherDims.WF S64x8 S16x1 S64x16 [0] [1] [] [1] [] 1 ![64, 1]
  dot_S64x16_S16x256_S64x256_1_0_0_1_n_n_wf : DotDims.WF S64x16 S16x256 S64x256 [1] [0] [0] [1] [] []

variable [Facts₀]

def gather_S64x256_S256x1_S64x256_0_1_n_n_1_1_641 : GatherDims S64x256 S256x1 S64x256 where
  offsetDims := [0]
  collapsedSliceDims := [1]
  operandBatchingDims := []
  startIndicesBatchingDims := []
  startIndexMap := [1]
  indexVectorDim := 1
  sliceSizes := ![64, 1]
  wf := gather_S64x256_S256x1_S64x256_0_1_n_n_1_1_641_wf
def dot_S64x256_S256x8_S64x8_1_0_0_1_n_n : DotDims S64x256 S256x8 S64x8 where
  lhsContracting := [1]
  rhsContracting := [0]
  lhsNonContracting := [0]
  rhsNonContracting := [1]
  lhsBatch := []
  rhsBatch := []
  wf := dot_S64x256_S256x8_S64x8_1_0_0_1_n_n_wf
def gather_S64x8_S16x1_S64x16_0_1_n_n_1_1_641 : GatherDims S64x8 S16x1 S64x16 where
  offsetDims := [0]
  collapsedSliceDims := [1]
  operandBatchingDims := []
  startIndicesBatchingDims := []
  startIndexMap := [1]
  indexVectorDim := 1
  sliceSizes := ![64, 1]
  wf := gather_S64x8_S16x1_S64x16_0_1_n_n_1_1_641_wf
def dot_S64x16_S16x256_S64x256_1_0_0_1_n_n : DotDims S64x16 S16x256 S64x256 where
  lhsContracting := [1]
  rhsContracting := [0]
  lhsNonContracting := [0]
  rhsNonContracting := [1]
  lhsBatch := []
  rhsBatch := []
  wf := dot_S64x16_S16x256_S64x256_1_0_0_1_n_n_wf

class Facts : Prop extends Facts₀ where

variable [Facts]
-- ==== Proof.KPool.lean ====
/-
  Region 0, the mean-pool kernel, at any entry contents `V` and any float instance: the proof data of its
  pipeline and the body obligation.  A grid point (i, j) of the 8 × 2 grid stages block (i, j) of the input
  — 8 batch rows, 128 channels, the whole 56 × 56 plane — and one block of 8 × 128 of the result.  The body
  loads the input block whole, sums it over the last axis, then over the next, divides by 3136 and stores the
  8 × 128 result whole; so after the body the result's staging buffer is the one stored piece, a function of the
  input block alone.  Blocks tile both arrays: nothing overhangs.
-/
import proofs.«103365_j15401752724153_1_alg».proof.Proof.Gen.Kernel.Launch
import proofs.«103365_j15401752724153_1_alg».proof.Proof.Gen.Kernel.Skeleton
import proofs.«103365_j15401752724153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block, and the whole result block: the two rectangles the body touches. -/
abbrev rIn0 : Rect S8x128x56x56 := Rect.unit (s := S8x128x56x56) ![0, 0, 0, 0] S8x128x56x56.size inb_S8x128x56x56_S8x128x56x56_0_0_0_0
abbrev rOut0 : Rect S8x128 := Rect.unit (s := S8x128) ![0, 0] S8x128.size inb_S8x128_S8x128_0_0

/-- The result's staging buffer after the body, from the input block: the one store, of the block's plane sums
    divided by 3136. -/
def out0_1 (x0 : Vec F S8x128x56x56 .f32) : Vec F S8x128 .f32 :=
  View.canon [⟨rOut0, k0_pay1 (View.ld x0 rIn0)⟩]

/-- The one store covers the result's buffer. -/
theorem cover0_1 (p0 : Vec F S8x128 .f32) (y : S8x128.Idx) :
    ∃ pc ∈ ([⟨rOut0, p0⟩] : List (View.Piece (Elt F) S8x128 .f32)), y ∈ pc.1.set :=
  View.cover_of_tiled [⟨rOut0, p0⟩] S8x128.size (by rfl) y

set_option maxHeartbeats 1000000 in
/-- The body on whole staging memrefs, the input's at contents `x0` and the result's at anything, runs to the
    continuation with the input's as it was and the result's at `out0_1 x0`. -/
theorem sound_kernel0 (c : Dev nD) (E : Set ℕ) (i : grid0.Coords) (arg2 : Memref sig .tc .vmem S8x128x56x56 .f32) (harg2 : arg2.IsWhole)
    (arg3 : Memref sig .tc .vmem S8x128 .f32) (harg3 : arg3.IsWhole)
    (x0 : Vec F S8x128x56x56 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__mean_kernel i arg2 harg2 arg3 harg3) K := by
  simp only [cc0__mean_kernel_eq_skeleton]; unfold cc0__mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t`
    the input's buffer at its block and the result's at `out0_1` of it; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KScale.lean ====
/-
  Region 1, the gate-multiply kernel, at any entry contents `V` and any float instance: the proof data of its
  pipeline and the body obligation.  A grid point (i, j, k) of the 8 × 2 × 2 grid stages block (i, j, k, 0) of
  the input — 8 batch rows, 128 channels, 32 rows of the plane, all 56 columns —, block (i, j) of the
  8 × 128 gate, and the block (i, j, k, 0) of the result.  The plane has 56 = 32 + 24 rows: at k = 1 the input's
  and the result's blocks overhang the array by 8 rows, and their transfers move the 24 rows inside the array
  only.  The body loads the gate block and the input block whole, multiplies every entry of the input block by
  the gate entry of its batch row and channel, and stores the product whole.  So on the rows inside the array
  the result's staging buffer is the product of the input's block with the gate; of the rows past the array's
  end nothing is stated, and nothing reads them.
-/
import proofs.«103365_j15401752724153_1_alg».proof.Proof.Gen.Kernel.Launch
import proofs.«103365_j15401752724153_1_alg».proof.Proof.Gen.Kernel.Skeleton
import proofs.«103365_j15401752724153_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it: for the input and the
    result, the part of the block inside the array (32 rows of the plane at k = 0, 24 at k = 1). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer after the body: its block on the rows inside the array, the zero word past the
    array's end (a filler nothing reads). -/
def xin8 (c : Dev nD) (t : Fin cfg1.N) : S8x128x32x56.Idx → Elt F .f32 :=
  win1_0.fill (grid1.coords t) (fun _ => Scalar.ofBits .f32 0#32) (iblk1 V c 0 t)

/-- The result's staging buffer after the body: on the rows inside the array the product of the input's block
    with the gate block, entry by entry; the zero word past the array's end. -/
def out8 (c : Dev nD) (t : Fin cfg1.N) : S8x128x32x56.Idx → Elt F .f32 :=
  win1_2.fill (grid1.coords t) (fun _ => Scalar.ofBits .f32 0#32)
    (win1_2.cut (grid1.coords t) (k1_pay1 (iblk1 V c 1 t) (xin8 V c t)))

/-- The proof data of pipeline 1 on core `c`: the arrays as the region finds them; after the body at point `t`
    the input's buffer at its block, the gate's at its block and the result's at their product, the first and
    the last filled out past the array's end with the zero word; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => xin8 V c t
    | ⟨1, _⟩ => iblk1 V c 1 t
    | ⟨2, _⟩ => out8 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = xin8 V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out8 V c t := by dsimp only [dat1]

/-! ## What the body finds in each staging buffer -/

/-- The input's current staging buffer, just fetched at every point: its block on the rows inside the array,
    `d` past the array's end. -/
theorem before1_0 (c : Dev nD) (t : Fin cfg1.N) (d) :
    (dat1 V c).before 0 t d = win1_0.fill (grid1.coords t) d (iblk1 V c 0 t) := by
  rw [(dat1 V c).before_fetched 0 t (fetch1_0 t) d]
  unfold Dat.fetched Dat.blockOf iblk1; rw [A_eq1]; try rfl

/-- The gate's current staging buffer holds its block at every point: fetched at the even points, and at an
    odd point (k = 1) the block index has not moved, so the buffer still holds the block. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The result's current staging buffer holds anything: it was written back at the point before. -/
theorem before1_2 (c : Dev nD) (t : Fin cfg1.N) (d) : (dat1 V c).before 2 t d = d :=
  (dat1 V c).before_out_reset 2 rfl t (by
    by_cases h : t.val = 0
    · exact .inl h
    · exact .inr ⟨h, flush1_2 _⟩) d

/-! ## The body -/

/-- The whole input (and result) block, and the whole gate block: the rectangles the body touches. -/
abbrev rBlk1 : Rect S8x128x32x56 := Rect.unit (s := S8x128x32x56) ![0, 0, 0, 0] S8x128x32x56.size inb_S8x128x32x56_S8x128x32x56_0_0_0_0
abbrev rGate1 : Rect S8x128 := Rect.unit (s := S8x128) ![0, 0] S8x128.size inb_S8x128_S8x128_0_0

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The result's staging buffer after the body, from the gate block and the input's staging buffer: the one
    store, of the product. -/
def out1_2 (x1 : Vec F S8x128 .f32) (x0 : Vec F S8x128x32x56 .f32) : Vec F S8x128x32x56 .f32 :=
  View.canon [⟨rBlk1, k1_pay1 (View.ld x1 rGate1) (View.ld x0 rBlk1)⟩]

/-- The one store covers the result's buffer. -/
theorem cover1_2 (p0 : Vec F S8x128x32x56 .f32) (y : S8x128x32x56.Idx) :
    ∃ pc ∈ ([⟨rBlk1, p0⟩] : List (View.Piece (Elt F) S8x128x32x56 .f32)), y ∈ pc.1.set :=
  ⟨_, List.mem_singleton_self _, View.mem_set_unit_zero hz4 inb_S8x128x32x56_S8x128x32x56_0_0_0_0 y⟩

/-- The whole loads read the buffers and the whole store leaves its payload: the result's buffer after the body
    is the product. -/
theorem out1_2_eq (x1 : Vec F S8x128 .f32) (x0 : Vec F S8x128x32x56 .f32) : out1_2 x1 x0 = k1_pay1 x1 x0 := by
  unfold out1_2
  rw [View.canon_unit_zero hz4, View.ld_unit_zero (S := S8x128) hz2, View.ld_unit_zero (S := S8x128x32x56) hz4]

/-- The gate block broadcast along the two plane axes: entry (b, ch, r, col) is the gate's entry (b, ch). -/
def gate1 (s : Vec F S8x128 .f32) : FVec F S8x128x32x56 .f32 :=
  broadcastTo S8x128x32x56 (shapeCast S8x128x1x1 (shapeCast S8x128 s shapeCasts_S8x128_S8x128) shapeCasts_S8x128_S8x128x1x1)
    broadcasts_S8x128x1x1_S8x128x32x56

/-- The body's payload is the entrywise product of the input's buffer with the broadcast gate. -/
theorem k1_pay1_apply (s : Vec F S8x128 .f32) (X : Vec F S8x128x32x56 .f32) (j : S8x128x32x56.Idx) :
    k1_pay1 s X j = FloatOps.mulf (X j) (gate1 s j) := rfl

/-- So on the rows inside the array it does not see what the input's buffer holds past the array's end. -/
theorem cut_pay1 (i : grid1.Coords) (s : Vec F S8x128 .f32) (d : S8x128x32x56.Idx → Elt F .f32)
    (g : (win1_0.xblock i).Idx → Elt F .f32) :
    win1_2.cut i (k1_pay1 s (win1_0.fill i d g)) = fun j => FloatOps.mulf (g j) (gate1 s (win1_2.xinj i j)) := by
  funext j
  show k1_pay1 s (win1_0.fill i d g) (win1_2.xinj i j) = _
  rw [k1_pay1_apply]
  exact congrArg (fun v => FloatOps.mulf v (gate1 s (win1_2.xinj i j))) (win1_0.fill_xinj i d g j)

set_option maxHeartbeats 1000000 in
/-- The body on whole staging memrefs, the input's at contents `x0`, the gate's at `x1` and the result's at
    anything, runs to the continuation with the first two as they were and the result's at `out1_2 x1 x0`. -/
theorem sound_kernel1 (c : Dev nD) (E : Set ℕ) (i : grid1.Coords)
    (arg3 : Memref sig .tc .vmem S8x128x32x56 .f32) (harg3 : arg3.IsWhole)
    (arg4 : Memref sig .tc .vmem S8x128 .f32) (harg4 : arg4.IsWhole)
    (arg5 : Memref sig .tc .vmem S8x128x32x56 .f32) (harg5 : arg5.IsWhole)
    (x0 : Vec F S8x128x32x56 .f32) (x1 : Vec F S8x128 .f32) (K : PUnit → sProp 𝕄) :
    iprop(owns (c : Thread nD τ) arg3 fullShare x0 ∗ owns (c : Thread nD τ) arg4 fullShare x1
        ∗ (∃ d, owns (c : Thread nD τ) arg5 fullShare d)
        ∗ (iprop(owns (c : Thread nD τ) arg3 fullShare x0 ∗ owns (c : Thread nD τ) arg4 fullShare x1
            ∗ owns (c : Thread nD τ) arg5 fullShare (out1_2 x1 x0)) -∗ K ⟨⟩))
      ⊢ wp frame (wpE (defs₀ (F := F)) Variants.none c none) E (cc1__scale_kernel i arg3 harg3 arg4 harg4 arg5 harg5) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the input's and the result's buffers stated on the rows inside the array only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare
        ((cfg1.win 0).fill (cfg1.grid.coords t) d ((cfg1.win 0).cut (cfg1.grid.coords t) ((dat1 V c).after 0 t))))
    ∗ owns (c : Thread nD τ) (st1_1 t) fullShare ((dat1 V c).after 1 t)
    ∗ (∃ d, owns (c : Thread nD τ) (st1_2 t) fullShare
        ((cfg1.win 2).fill (cfg1.grid.coords t) d ((cfg1.win 2).cut (cfg1.grid.coords t) ((dat1 V c).after 2 t)))))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (win1_0.fill (grid1.coords t) d0 (iblk1 V c 0 t)) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  -- the input's buffer is as found: its block filled out with `d0`; the result's holds the product, which on
  -- the rows inside the array is `out8`'s whatever `d0` is
  have h0 : win1_0.cut (grid1.coords t) (xin8 V c t) = iblk1 V c 0 t := win1_0.cut_fill _ _ _
  have h2 : win1_2.cut (grid1.coords t) (out1_2 (iblk1 V c 1 t) (win1_0.fill (grid1.coords t) d0 (iblk1 V c 0 t)))
      = win1_2.cut (grid1.coords t) (out8 V c t) := by
    rw [out1_2_eq, cut_pay1]
    unfold out8 xin8
    rw [win1_2.cut_fill, cut_pay1]
  isplitl [H0]
  · iexists d0
    change _ ⊢ owns (c : Thread nD τ) (st1_0 t) fullShare (win1_0.fill (grid1.coords t) d0 (win1_0.cut (grid1.coords t) (xin8 V c t)))
    rw [h0]; try iexact H0
  isplitl [H1]; · iexact H1
  iexists out1_2 (iblk1 V c 1 t) (win1_0.fill (grid1.coords t) d0 (iblk1 V c 0 t))
  change _ ⊢ owns (c : Thread nD τ) (st1_2 t) fullShare (win1_2.fill (grid1.coords t) (out1_2 (iblk1 V c 1 t) (win1_0.fill (grid1.coords t) d0 (iblk1 V c 0 t))) (win1_2.cut (grid1.coords t) (out8 V c t)))
  rw [win1_2.fill_congr_cut _ h2]; try iexact H2

/-- The body obligation of pipeline 1, at every point. -/
theorem body_obligation1 (c : Dev nD) : Pipeline.BodyObligationLoose (dat1 (F := F) V c) (defs₀ (F := F)) Variants.none () Set.univ := fun t => by
  rw [bigSep_W1, bigSep_W1]
  exact sound_body1 V c t

end Cert.Kernel.Hand

end
-- ==== Proof.KRun.lean ====
/-
  The run of the whole program at any float instance: @main is a stretch of host operations writing the literal
  tables, the mean-pool region, nine stretches of host operations (the gate's computation from the pooled means and
  the weight matrix), and the gate-multiply region.  The buffer contents at each boundary are a fold from the launch
  memory: a stretch applies its operations in order; a region leaves its arrays at what its write-backs leave
  and every other buffer as entered.  Each boundary's thread state is "every unscoped buffer at the boundary's
  contents, the generator register at some state, nothing owed".  Conclusion: every weakly fair execution
  terminates, nothing faulting, and every unscoped buffer ends at the last boundary's contents — the two argument
  arrays as launched, the result at what the second region's write-backs leave.
-/
import proofs.«103365_j15401752724153_1_alg».proof.Proof.KPool
import proofs.«103365_j15401752724153_1_alg».proof.Proof.KScale
import proofs.«103365_j15401752724153_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (the literal tables written): the pool region's entry. -/
abbrev W1 : Dev nD → Valuation τ sig (Elt F) := fun c => StableHlo.after hostOps0 (W0 m ρ c)
/-- The same read at the TensorCore's references. -/
abbrev Vr0 : (c : Dev nD) → (b : Ref sig .tc) → Buf (Elt F) ((c : Thread nD τ).loc b) := fun c b => W1 m ρ c b
/-- At the pool region's exit: its arrays at what the pipeline leaves, every other buffer as entered. -/
def W2 (c : Dev nD) : Valuation τ sig (Elt F) :=
  Pipeline.withArrays spec0 c (W1 m ρ c) fun w => (dat0 (Vr0 m ρ) c).arrAt w cfg0.N
theorem W2_arr (c : Dev nD) (w : Fin cfg0.W) :
    W2 m ρ c (Proc.devRef .tc (Pipeline.arrRef spec0 w)) = (dat0 (Vr0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Xr0 : (c : Dev nD) → (b : Ref sig .tc) → Buf (Elt F) ((c : Thread nD τ).loc b) := fun c b => W2 m ρ c b
theorem hF0 (c : Dev nD) (w : Fin cfg0.W) : (dat0 (Vr0 m ρ) c).arrAt w cfg0.N = Xr0 m ρ c (Pipeline.arrRef spec0 w) :=
  (W2_arr m ρ c w).symm
theorem hrest0 (c : Dev nD) : ∀ b, b ∉ Finset.univ.image (Pipeline.arrRef spec0) → Xr0 m ρ c b = Vr0 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- After `hostOps1_1`. -/
abbrev W4 : Dev nD → Valuation τ sig (Elt F) := fun c => StableHlo.after hostOps1_1 (W3 m ρ c)
/-- After `hostOps1_2`. -/
abbrev W5 : Dev nD → Valuation τ sig (Elt F) := fun c => StableHlo.after hostOps1_2 (W4 m ρ c)
/-- After `hostOps1_3`. -/
abbrev W6 : Dev nD → Valuation τ sig (Elt F) := fun c => StableHlo.after hostOps1_3 (W5 m ρ c)
/-- After `hostOps1_4`. -/
abbrev W7 : Dev nD → Valuation τ sig (Elt F) := fun c => StableHlo.after hostOps1_4 (W6 m ρ c)
/-- After `hostOps1_5`. -/
abbrev W8 : Dev nD → Valuation τ sig (Elt F) := fun c => StableHlo.after hostOps1_5 (W7 m ρ c)
/-- After `hostOps1_6`. -/
abbrev W9 : Dev nD → Valuation τ sig (Elt F) := fun c => StableHlo.after hostOps1_6 (W8 m ρ c)
/-- After `hostOps1_7`. -/
abbrev W10 : Dev nD → Valuation τ sig (Elt F) := fun c => StableHlo.after hostOps1_7 (W9 m ρ c)
/-- After `hostOps1_8`. -/
abbrev W11 : Dev nD → Valuation τ sig (Elt F) := fun c => StableHlo.after hostOps1_8 (W10 m ρ c)

/-- The gate region's entry contents read at the TensorCore's references. -/
abbrev Vr1 : (c : Dev nD) → (b : Ref sig .tc) → Buf (Elt F) ((c : Thread nD τ).loc b) := fun c b => W11 m ρ c b
/-- At the gate region's exit. -/
def W12 (c : Dev nD) : Valuation τ sig (Elt F) :=
  Pipeline.withArrays spec1 c (W11 m ρ c) fun w => (dat1 (Vr1 m ρ) c).arrAt w cfg1.N
theorem W12_arr (c : Dev nD) (w : Fin cfg1.W) :
    W12 m ρ c (Proc.devRef .tc (Pipeline.arrRef spec1 w)) = (dat1 (Vr1 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev Xr1 : (c : Dev nD) → (b : Ref sig .tc) → Buf (Elt F) ((c : Thread nD τ).loc b) := fun c b => W12 m ρ c b
theorem hF1 (c : Dev nD) (w : Fin cfg1.W) : (dat1 (Vr1 m ρ) c).arrAt w cfg1.N = Xr1 m ρ c (Pipeline.arrRef spec1 w) :=
  (W12_arr m ρ c w).symm
theorem hrest1 (c : Dev nD) : ∀ b, b ∉ Finset.univ.image (Pipeline.arrRef spec1) → Xr1 m ρ c b = Vr1 m ρ c b :=
  fun b hb => W12_of_ne m ρ c b fun w e => hb (Finset.mem_image.mpr ⟨w, Finset.mem_univ _, e⟩)

/-! ### The arguments end as launched: no host operation writes one, and each region only reads them -/

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := (W12_arr m ρ c 0).trans (((dat1 (Vr1 m ρ) c).arrAt_in 0 rfl _).trans (A_eq1 (Vr1 m ρ) c 0))
    _ = W10 m ρ c (Proc.devRef .tc main_arg0) := StableHlo.after_of_writes_sub hostOps1_8 _ hostOps1_8_writes (by decide)
    _ = W9 m ρ c (Proc.devRef .tc main_arg0) := StableHlo.after_of_writes_sub hostOps1_7 _ hostOps1_7_writes (by decide)
    _ = W8 m ρ c (Proc.devRef .tc main_arg0) := StableHlo.after_of_writes_sub hostOps1_6 _ hostOps1_6_writes (by decide)
    _ = W7 m ρ c (Proc.devRef .tc main_arg0) := StableHlo.after_of_writes_sub hostOps1_5 _ hostOps1_5_writes (by decide)
    _ = W6 m ρ c (Proc.devRef .tc main_arg0) := StableHlo.after_of_writes_sub hostOps1_4 _ hostOps1_4_writes (by decide)
    _ = W5 m ρ c (Proc.devRef .tc main_arg0) := StableHlo.after_of_writes_sub hostOps1_3 _ hostOps1_3_writes (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (Vr0 m ρ) c).arrAt_in 0 rfl _).trans (A_eq0 (Vr0 m ρ) c 0))
    _ = W0 m ρ c (Proc.devRef .tc main_arg0) := StableHlo.after_of_writes_sub hostOps0 _ hostOps0_writes (by decide)
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_writes_sub hostOps1_8 _ hostOps1_8_writes (by decide)
    _ = W9 m ρ c (Proc.devRef .tc main_arg1) := StableHlo.after_of_writes_sub hostOps1_7 _ hostOps1_7_writes (by decide)
    _ = W8 m ρ c (Proc.devRef .tc main_arg1) := StableHlo.after_of_writes_sub hostOps1_6 _ hostOps1_6_writes (by decide)
    _ = W7 m ρ c (Proc.devRef .tc main_arg1) := StableHlo.after_of_writes_sub hostOps1_5 _ hostOps1_5_writes (by decide)
    _ = W6 m ρ c (Proc.devRef .tc main_arg1) := StableHlo.after_of_writes_sub hostOps1_4 _ hostOps1_4_writes (by decide)
    _ = W5 m ρ c (Proc.devRef .tc main_arg1) := StableHlo.after_of_writes_sub hostOps1_3 _ hostOps1_3_writes (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr0 m ρ) c
  | ⟨1, _⟩ => fun c => dat1 (Vr1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- The pool region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr0 m ρ c) (Xr0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gate region over the thread state: entered from every unscoped buffer at `W11`, left at `W12`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (Vr1 m ρ) c
  hwaits := Pipeline.hwaits_of_owed_zero _ _ _ _ L lv 1 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr1 m ρ c) (Xr1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W12_main_arg0 m ρ c),
     (h c _ (mem_uc main_arg1 (by decide))).trans (W12_main_arg1 m ρ c)⟩) (run_all m ρ)

/-- The result array after the run is what the gate region's write-backs leave. -/
theorem result_read (c : Dev nD) : W12 m ρ c (Proc.devRef .tc main_v19) = (dat1 (Vr1 m ρ) c).arrAt 2 cfg1.N :=
  W12_arr m ρ c 2

end Cert.Kernel.Hand

end
-- ==== Proof.KIPool.lean ====
/-
  Region 0, the mean-pool kernel, at any entry contents `V` and any float instance: the proof data of its
  pipeline and the body obligation.  A grid point (i, j) of the 8 × 2 grid stages block (i, j) of the input
  — 8 batch rows, 128 channels, the whole 56 × 56 plane — and one block of 8 × 128 of the result.  The body
  loads the input block whole, sums it over the last axis, then over the next, divides by 3136 and stores the
  8 × 128 result whole; so after the body the result's staging buffer is the one stored piece, a function of the
  input block alone.  Blocks tile both arrays: nothing overhangs.
-/
import proofs.«103365_j15401752724153_1_alg».proof.Proof.Gen.KernelIdeal.Launch
import proofs.«103365_j15401752724153_1_alg».proof.Proof.Gen.KernelIdeal.Skeleton
import proofs.«103365_j15401752724153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's current staging buffer holds its block at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole input block, and the whole result block: the two rectangles the body touches. -/
abbrev rIn0 : Rect S8x128x56x56 := Rect.unit (s := S8x128x56x56) ![0, 0, 0, 0] S8x128x56x56.size inb_S8x128x56x56_S8x128x56x56_0_0_0_0
abbrev rOut0 : Rect S8x128 := Rect.unit (s := S8x128) ![0, 0] S8x128.size inb_S8x128_S8x128_0_0

/-- The result's staging buffer after the body, from the input block: the one store, of the block's plane sums
    divided by 3136. -/
def out0_1 (x0 : Vec F S8x128x56x56 .f32) : Vec F S8x128 .f32 :=
  View.canon [⟨rOut0, k0_pay1 (View.ld x0 rIn0)⟩]

/-- The one store covers the result's buffer. -/
theorem cover0_1 (p0 : Vec F S8x128 .f32) (y : S8x128.Idx) :
    ∃ pc ∈ ([⟨rOut0, p0⟩] : List (View.Piece (Elt F) S8x128 .f32)), y ∈ pc.1.set :=
  View.cover_of_tiled [⟨rOut0, p0⟩] S8x128.size (by rfl) y

set_option maxHeartbeats 1000000 in
/-- The body on whole staging memrefs, the input's at contents `x0` and the result's at anything, runs to the
    continuation with the input's as it was and the result's at `out0_1 x0`. -/
theorem sound_kernel0 (c : Dev nD) (E : Set ℕ) (i : grid0.Coords) (arg2 : Memref sig .tc .vmem S8x128x56x56 .f32) (harg2 : arg2.IsWhole)
    (arg3 : Memref sig .tc .vmem S8x128 .f32) (harg3 : arg3.IsWhole)
    (x0 : Vec F S8x128x56x56 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__mean_kernel i arg2 harg2 arg3 harg3) K := by
  simp only [cc0__mean_kernel_eq_skeleton]; unfold cc0__mean_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: the arrays as the region finds them; after the body at point `t`
    the input's buffer at its block and the result's at `out0_1` of it; the scoped rest and the generator
    register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIScale.lean ====
/-
  Region 1, the gate-multiply kernel, at any entry contents `V` and any float instance: the proof data of its
  pipeline and the body obligation.  A grid point (i, j, k) of the 8 × 2 × 2 grid stages block (i, j, k, 0) of
  the input — 8 batch rows, 128 channels, 32 rows of the plane, all 56 columns —, block (i, j) of the
  8 × 128 gate, and the block (i, j, k, 0) of the result.  The plane has 56 = 32 + 24 rows: at k = 1 the input's
  and the result's blocks overhang the array by 8 rows, and their transfers move the 24 rows inside the array
  only.  The body loads the gate block and the input block whole, multiplies every entry of the input block by
  the gate entry of its batch row and channel, and stores the product whole.  So on the rows inside the array
  the result's staging buffer is the product of the input's block with the gate; of the rows past the array's
  end nothing is stated, and nothing reads them.
-/
import proofs.«103365_j15401752724153_1_alg».proof.Proof.Gen.KernelIdeal.Launch
import proofs.«103365_j15401752724153_1_alg».proof.Proof.Gen.KernelIdeal.Skeleton
import proofs.«103365_j15401752724153_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it: for the input and the
    result, the part of the block inside the array (32 rows of the plane at k = 0, 24 at k = 1). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input's staging buffer after the body: its block on the rows inside the array, the zero word past the
    array's end (a filler nothing reads). -/
def xin8 (c : Dev nD) (t : Fin cfg1.N) : S8x128x32x56.Idx → Elt F .f32 :=
  win1_0.fill (grid1.coords t) (fun _ => Scalar.ofBits .f32 0#32) (iblk1 V c 0 t)

/-- The result's staging buffer after the body: on the rows inside the array the product of the input's block
    with the gate block, entry by entry; the zero word past the array's end. -/
def out8 (c : Dev nD) (t : Fin cfg1.N) : S8x128x32x56.Idx → Elt F .f32 :=
  win1_2.fill (grid1.coords t) (fun _ => Scalar.ofBits .f32 0#32)
    (win1_2.cut (grid1.coords t) (k1_pay1 (iblk1 V c 1 t) (xin8 V c t)))

/-- The proof data of pipeline 1 on core `c`: the arrays as the region finds them; after the body at point `t`
    the input's buffer at its block, the gate's at its block and the result's at their product, the first and
    the last filled out past the array's end with the zero word; the scoped rest and the generator register
    untouched; nothing owed; full shares. -/
def dat1 (c : Dev nD) : Dat τ (Elt F) Unit ℕ (UR sig nD τ) ℕ cfg1 c where
  A w := V c (Pipeline.arrRef spec1 w)
  after w t := match w with
    | ⟨0, _⟩ => xin8 V c t
    | ⟨1, _⟩ => iblk1 V c 1 t
    | ⟨2, _⟩ => out8 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = xin8 V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out8 V c t := by dsimp only [dat1]

/-! ## What the body finds in each staging buffer -/

/-- The input's current staging buffer, just fetched at every point: its block on the rows inside the array,
    `d` past the array's end. -/
theorem before1_0 (c : Dev nD) (t : Fin cfg1.N) (d) :
    (dat1 V c).before 0 t d = win1_0.fill (grid1.coords t) d (iblk1 V c 0 t) := by
  rw [(dat1 V c).before_fetched 0 t (fetch1_0 t) d]
  unfold Dat.fetched Dat.blockOf iblk1; rw [A_eq1]; try rfl

/-- The gate's current staging buffer holds its block at every point: fetched at the even points, and at an
    odd point (k = 1) the block index has not moved, so the buffer still holds the block. -/
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- The result's current staging buffer holds anything: it was written back at the point before. -/
theorem before1_2 (c : Dev nD) (t : Fin cfg1.N) (d) : (dat1 V c).before 2 t d = d :=
  (dat1 V c).before_out_reset 2 rfl t (by
    by_cases h : t.val = 0
    · exact .inl h
    · exact .inr ⟨h, flush1_2 _⟩) d

/-! ## The body -/

/-- The whole input (and result) block, and the whole gate block: the rectangles the body touches. -/
abbrev rBlk1 : Rect S8x128x32x56 := Rect.unit (s := S8x128x32x56) ![0, 0, 0, 0] S8x128x32x56.size inb_S8x128x32x56_S8x128x32x56_0_0_0_0
abbrev rGate1 : Rect S8x128 := Rect.unit (s := S8x128) ![0, 0] S8x128.size inb_S8x128_S8x128_0_0

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The result's staging buffer after the body, from the gate block and the input's staging buffer: the one
    store, of the product. -/
def out1_2 (x1 : Vec F S8x128 .f32) (x0 : Vec F S8x128x32x56 .f32) : Vec F S8x128x32x56 .f32 :=
  View.canon [⟨rBlk1, k1_pay1 (View.ld x1 rGate1) (View.ld x0 rBlk1)⟩]

/-- The one store covers the result's buffer. -/
theorem cover1_2 (p0 : Vec F S8x128x32x56 .f32) (y : S8x128x32x56.Idx) :
    ∃ pc ∈ ([⟨rBlk1, p0⟩] : List (View.Piece (Elt F) S8x128x32x56 .f32)), y ∈ pc.1.set :=
  ⟨_, List.mem_singleton_self _, View.mem_set_unit_zero hz4 inb_S8x128x32x56_S8x128x32x56_0_0_0_0 y⟩

/-- The whole loads read the buffers and the whole store leaves its payload: the result's buffer after the body
    is the product. -/
theorem out1_2_eq (x1 : Vec F S8x128 .f32) (x0 : Vec F S8x128x32x56 .f32) : out1_2 x1 x0 = k1_pay1 x1 x0 := by
  unfold out1_2
  rw [View.canon_unit_zero hz4, View.ld_unit_zero (S := S8x128) hz2, View.ld_unit_zero (S := S8x128x32x56) hz4]

/-- The gate block broadcast along the two plane axes: entry (b, ch, r, col) is the gate's entry (b, ch). -/
def gate1 (s : Vec F S8x128 .f32) : FVec F S8x128x32x56 .f32 :=
  broadcastTo S8x128x32x56 (shapeCast S8x128x1x1 (shapeCast S8x128 s shapeCasts_S8x128_S8x128) shapeCasts_S8x128_S8x128x1x1)
    broadcasts_S8x128x1x1_S8x128x32x56

/-- The body's payload is the entrywise product of the input's buffer with the broadcast gate. -/
theorem k1_pay1_apply (s : Vec F S8x128 .f32) (X : Vec F S8x128x32x56 .f32) (j : S8x128x32x56.Idx) :
    k1_pay1 s X j = FloatOps.mulf (X j) (gate1 s j) := rfl

/-- So on the rows inside the array it does not see what the input's buffer holds past the array's end. -/
theorem cut_pay1 (i : grid1.Coords) (s : Vec F S8x128 .f32) (d : S8x128x32x56.Idx → Elt F .f32)
    (g : (win1_0.xblock i).Idx → Elt F .f32) :
    win1_2.cut i (k1_pay1 s (win1_0.fill i d g)) = fun j => FloatOps.mulf (g j) (gate1 s (win1_2.xinj i j)) := by
  funext j
  show k1_pay1 s (win1_0.fill i d g) (win1_2.xinj i j) = _
  rw [k1_pay1_apply]
  exact congrArg (fun v => FloatOps.mulf v (gate1 s (win1_2.xinj i j))) (win1_0.fill_xinj i d g j)

set_option maxHeartbeats 1000000 in
/-- The body on whole staging memrefs, the input's at contents `x0`, the gate's at `x1` and the result's at
    anything, runs to the continuation with the first two as they were and the result's at `out1_2 x1 x0`. -/
theorem sound_kernel1 (c : Dev nD) (E : Set ℕ) (i : grid1.Coords)
    (arg3 : Memref sig .tc .vmem S8x128x32x56 .f32) (harg3 : arg3.IsWhole)
    (arg4 : Memref sig .tc .vmem S8x128 .f32) (harg4 : arg4.IsWhole)
    (arg5 : Memref sig .tc .vmem S8x128x32x56 .f32) (harg5 : arg5.IsWhole)
    (x0 : Vec F S8x128x32x56 .f32) (x1 : Vec F S8x128 .f32) (K : PUnit → sProp 𝕄) :
    iprop(owns (c : Thread nD τ) arg3 fullShare x0 ∗ owns (c : Thread nD τ) arg4 fullShare x1
        ∗ (∃ d, owns (c : Thread nD τ) arg5 fullShare d)
        ∗ (iprop(owns (c : Thread nD τ) arg3 fullShare x0 ∗ owns (c : Thread nD τ) arg4 fullShare x1
            ∗ owns (c : Thread nD τ) arg5 fullShare (out1_2 x1 x0)) -∗ K ⟨⟩))
      ⊢ wp frame (wpE (defs₀ (F := F)) Variants.none c none) E (cc1__scale_kernel i arg3 harg3 arg4 harg4 arg5 harg5) K := by
  simp only [cc1__scale_kernel_eq_skeleton]; unfold cc1__scale_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns: the input's and the result's buffers stated on the rows inside the array only. -/
def bodyPost1 (c : Dev nD) (t : Fin cfg1.N) : sProp 𝕄 :=
  iprop((dat1 V c).Φ t.succ ∗ (dat1 V c).owesAt () t.succ
    ∗ (∃ d, owns (c : Thread nD τ) (st1_0 t) fullShare
        ((cfg1.win 0).fill (cfg1.grid.coords t) d ((cfg1.win 0).cut (cfg1.grid.coords t) ((dat1 V c).after 0 t))))
    ∗ owns (c : Thread nD τ) (st1_1 t) fullShare ((dat1 V c).after 1 t)
    ∗ (∃ d, owns (c : Thread nD τ) (st1_2 t) fullShare
        ((cfg1.win 2).fill (cfg1.grid.coords t) d ((cfg1.win 2).cut (cfg1.grid.coords t) ((dat1 V c).after 2 t)))))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (win1_0.fill (grid1.coords t) d0 (iblk1 V c 0 t)) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  -- the input's buffer is as found: its block filled out with `d0`; the result's holds the product, which on
  -- the rows inside the array is `out8`'s whatever `d0` is
  have h0 : win1_0.cut (grid1.coords t) (xin8 V c t) = iblk1 V c 0 t := win1_0.cut_fill _ _ _
  have h2 : win1_2.cut (grid1.coords t) (out1_2 (iblk1 V c 1 t) (win1_0.fill (grid1.coords t) d0 (iblk1 V c 0 t)))
      = win1_2.cut (grid1.coords t) (out8 V c t) := by
    rw [out1_2_eq, cut_pay1]
    unfold out8 xin8
    rw [win1_2.cut_fill, cut_pay1]
  isplitl [H0]
  · iexists d0
    change _ ⊢ owns (c : Thread nD τ) (st1_0 t) fullShare (win1_0.fill (grid1.coords t) d0 (win1_0.cut (grid1.coords t) (xin8 V c t)))
    rw [h0]; try iexact H0
  isplitl [H1]; · iexact H1
  iexists out1_2 (iblk1 V c 1 t) (win1_0.fill (grid1.coords t) d0 (iblk1 V c 0 t))
  change _ ⊢ owns (c : Thread nD τ) (st1_2 t) fullShare (win1_2.fill (grid1.coords t) (out1_2 (iblk1 V c 1 t) (win1_0.fill (grid1.coords t) d0 (iblk1 V c 0 t))) (win1_2.cut (grid1.coords t) (out8 V c t)))
  rw [win1_2.fill_congr_cut _ h2]; try iexact H2

/-- The body obligation of pipeline 1, at every point. -/
theorem body_obligation1 (c : Dev nD) : Pipeline.BodyObligationLoose (dat1 (F := F) V c) (defs₀ (F := F)) Variants.none () Set.univ := fun t => by
  rw [bigSep_W1, bigSep_W1]
  exact sound_body1 V c t

end Cert.KernelIdeal.Hand

end
-- ==== Proof.KIRun.lean ====
/-
  The run of the whole program at any float instance: @main is a stretch of host operations writing the literal
  tables, the mean-pool region, nine stretches of host operations (the gate's computation from the pooled means and
  the weight matrix), and the gate-multiply region.  The buffer contents at each boundary are a fold from the launch
  memory: a stretch applies its operations in order; a region leaves its arrays at what its write-backs leave
  and every other buffer as entered.  Each boundary's thread state is "every unscoped buffer at the boundary's
  contents, the generator register at some state, nothing owed".  Conclusion: every weakly fair execution
  terminates, nothing faulting, and every unscoped buffer ends at the last boundary's contents — the two argument
  arrays as launched, the result at what the second region's write-backs leave.
-/
import proofs.«103365_j15401752724153_1_alg».proof.Proof.KIPool
import proofs.«103365_j15401752724153_1_alg».proof.Proof.KIScale
import proofs.«103365_j15401752724153_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (the literal tables written): the pool region's entry. -/
abbrev W1 : Dev nD → Valuation τ sig (Elt F) := fun c => StableHlo.after hostOps0 (W0 m ρ c)
/-- The same read at the TensorCore's references. -/
abbrev Vr0 : (c : Dev nD) → (b : Ref sig .tc) → Buf (Elt F) ((c : Thread nD τ).loc b) := fun c b => W1 m ρ c b
/-- At the pool region's exit: its arrays at what the pipeline leaves, every other buffer as entered. -/
def W2 (c : Dev nD) : Valuation τ sig (Elt F) :=
  Pipeline.withArrays spec0 c (W1 m ρ c) fun w => (dat0 (Vr0 m ρ) c).arrAt w cfg0.N
theorem W2_arr (c : Dev nD) (w : Fin cfg0.W) :
    W2 m ρ c (Proc.devRef .tc (Pipeline.arrRef spec0 w)) = (dat0 (Vr0 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev Xr0 : (c : Dev nD) → (b : Ref sig .tc) → Buf (Elt F) ((c : Thread nD τ).loc b) := fun c b => W2 m ρ c b
theorem hF0 (c : Dev nD) (w : Fin cfg0.W) : (dat0 (Vr0 m ρ) c).arrAt w cfg0.N = Xr0 m ρ c (Pipeline.arrRef spec0 w) :=
  (W2_arr m ρ c w).symm
theorem hrest0 (c : Dev nD) : ∀ b, b ∉ Finset.univ.image (Pipeline.arrRef spec0) → Xr0 m ρ c b = Vr0 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- After `hostOps1_1`. -/
abbrev W4 : Dev nD → Valuation τ sig (Elt F) := fun c => StableHlo.after hostOps1_1 (W3 m ρ c)
/-- After `hostOps1_2`. -/
abbrev W5 : Dev nD → Valuation τ sig (Elt F) := fun c => StableHlo.after hostOps1_2 (W4 m ρ c)
/-- After `hostOps1_3`. -/
abbrev W6 : Dev nD → Valuation τ sig (Elt F) := fun c => StableHlo.after hostOps1_3 (W5 m ρ c)
/-- After `hostOps1_4`. -/
abbrev W7 : Dev nD → Valuation τ sig (Elt F) := fun c => StableHlo.after hostOps1_4 (W6 m ρ c)
/-- After `hostOps1_5`. -/
abbrev W8 : Dev nD → Valuation τ sig (Elt F) := fun c => StableHlo.after hostOps1_5 (W7 m ρ c)
/-- After `hostOps1_6`. -/
abbrev W9 : Dev nD → Valuation τ sig (Elt F) := fun c => StableHlo.after hostOps1_6 (W8 m ρ c)
/-- After `hostOps1_7`. -/
abbrev W10 : Dev nD → Valuation τ sig (Elt F) := fun c => StableHlo.after hostOps1_7 (W9 m ρ c)
/-- After `hostOps1_8`. -/
abbrev W11 : Dev nD → Valuation τ sig (Elt F) := fun c => StableHlo.after hostOps1_8 (W10 m ρ c)

/-- The gate region's entry contents read at the TensorCore's references. -/
abbrev Vr1 : (c : Dev nD) → (b : Ref sig .tc) → Buf (Elt F) ((c : Thread nD τ).loc b) := fun c b => W11 m ρ c b
/-- At the gate region's exit. -/
def W12 (c : Dev nD) : Valuation τ sig (Elt F) :=
  Pipeline.withArrays spec1 c (W11 m ρ c) fun w => (dat1 (Vr1 m ρ) c).arrAt w cfg1.N
theorem W12_arr (c : Dev nD) (w : Fin cfg1.W) :
    W12 m ρ c (Proc.devRef .tc (Pipeline.arrRef spec1 w)) = (dat1 (Vr1 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev Xr1 : (c : Dev nD) → (b : Ref sig .tc) → Buf (Elt F) ((c : Thread nD τ).loc b) := fun c b => W12 m ρ c b
theorem hF1 (c : Dev nD) (w : Fin cfg1.W) : (dat1 (Vr1 m ρ) c).arrAt w cfg1.N = Xr1 m ρ c (Pipeline.arrRef spec1 w) :=
  (W12_arr m ρ c w).symm
theorem hrest1 (c : Dev nD) : ∀ b, b ∉ Finset.univ.image (Pipeline.arrRef spec1) → Xr1 m ρ c b = Vr1 m ρ c b :=
  fun b hb => W12_of_ne m ρ c b fun w e => hb (Finset.mem_image.mpr ⟨w, Finset.mem_univ _, e⟩)

/-! ### The arguments end as launched: no host operation writes one, and each region only reads them -/

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := (W12_arr m ρ c 0).trans (((dat1 (Vr1 m ρ) c).arrAt_in 0 rfl _).trans (A_eq1 (Vr1 m ρ) c 0))
    _ = W10 m ρ c (Proc.devRef .tc main_arg0) := StableHlo.after_of_writes_sub hostOps1_8 _ hostOps1_8_writes (by decide)
    _ = W9 m ρ c (Proc.devRef .tc main_arg0) := StableHlo.after_of_writes_sub hostOps1_7 _ hostOps1_7_writes (by decide)
    _ = W8 m ρ c (Proc.devRef .tc main_arg0) := StableHlo.after_of_writes_sub hostOps1_6 _ hostOps1_6_writes (by decide)
    _ = W7 m ρ c (Proc.devRef .tc main_arg0) := StableHlo.after_of_writes_sub hostOps1_5 _ hostOps1_5_writes (by decide)
    _ = W6 m ρ c (Proc.devRef .tc main_arg0) := StableHlo.after_of_writes_sub hostOps1_4 _ hostOps1_4_writes (by decide)
    _ = W5 m ρ c (Proc.devRef .tc main_arg0) := StableHlo.after_of_writes_sub hostOps1_3 _ hostOps1_3_writes (by decide)
    _ = W4 m ρ c (Proc.devRef .tc main_arg0) := StableHlo.after_of_writes_sub hostOps1_2 _ hostOps1_2_writes (by decide)
    _ = W3 m ρ c (Proc.devRef .tc main_arg0) := StableHlo.after_of_writes_sub hostOps1_1 _ hostOps1_1_writes (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (Vr0 m ρ) c).arrAt_in 0 rfl _).trans (A_eq0 (Vr0 m ρ) c 0))
    _ = W0 m ρ c (Proc.devRef .tc main_arg0) := StableHlo.after_of_writes_sub hostOps0 _ hostOps0_writes (by decide)
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := W12_of_ne m ρ c main_arg1 (by decide)
    _ = W10 m ρ c (Proc.devRef .tc main_arg1) := StableHlo.after_of_writes_sub hostOps1_8 _ hostOps1_8_writes (by decide)
    _ = W9 m ρ c (Proc.devRef .tc main_arg1) := StableHlo.after_of_writes_sub hostOps1_7 _ hostOps1_7_writes (by decide)
    _ = W8 m ρ c (Proc.devRef .tc main_arg1) := StableHlo.after_of_writes_sub hostOps1_6 _ hostOps1_6_writes (by decide)
    _ = W7 m ρ c (Proc.devRef .tc main_arg1) := StableHlo.after_of_writes_sub hostOps1_5 _ hostOps1_5_writes (by decide)
    _ = W6 m ρ c (Proc.devRef .tc main_arg1) := StableHlo.after_of_writes_sub hostOps1_4 _ hostOps1_4_writes (by decide)
    _ = W5 m ρ c (Proc.devRef .tc main_arg1) := StableHlo.after_of_writes_sub hostOps1_3 _ hostOps1_3_writes (by decide)
    _ = W4 m ρ c (Proc.devRef .tc main_arg1) := StableHlo.after_of_writes_sub hostOps1_2 _ hostOps1_2_writes (by decide)
    _ = W3 m ρ c (Proc.devRef .tc main_arg1) := StableHlo.after_of_writes_sub hostOps1_1 _ hostOps1_1_writes (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vr0 m ρ) c
  | ⟨1, _⟩ => fun c => dat1 (Vr1 m ρ) c
abbrev 𝒱₀ : Variants := Variants.none
abbrev L : GSem nD τ sig → Finset Unit := fun _ => ∅
abbrev lv : GSem nD τ sig → Unit → ℕ := fun _ _ => 0
/-- What rides beside the buffers through every segment: the generator register at some state and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W12 m ρ c) ∗ ∃ r, prngReg c r)

/-! ## The regions as segments -/

set_option backward.isDefEq.respectTransparency.types false in
/-- The pool region over the thread state: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (Vr0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Vr0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Vr0 m ρ c) (Xr0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The gate region over the thread state: entered from every unscoped buffer at `W11`, left at `W12`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := body_obligation1 (Vr1 m ρ) c
  hwaits := Pipeline.hwaits_of_owed_zero _ _ _ _ L lv 1 fun _ _ => rfl
  pre c := iprop(StableHlo.held (c : Thread nD τ) (Pipeline.ucRefs τ sig) (W11 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vr1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vr1 m ρ c) (Xr1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W12_main_arg0 m ρ c),
     (h c _ (mem_uc main_arg1 (by decide))).trans (W12_main_arg1 m ρ c)⟩) (run_all m ρ)

/-- The result array after the run is what the gate region's write-backs leave. -/
theorem result_read (c : Dev nD) : W12 m ρ c (Proc.devRef .tc main_v19) = (dat1 (Vr1 m ρ) c).arrAt 2 cfg1.N :=
  W12_arr m ρ c 2

end Cert.KernelIdeal.Hand

end
-- ==== Proof.Chains.lean ====
import proofs.«103365_j15401752724153_1_alg».proof.KernelIdeal
import proofs.«103365_j15401752724153_1_alg».proof.ReferenceIdeal

/-! # The host computations of the two programs as pure functions

Both programs compute, between the mean over the two trailing axes and the final gate multiply, a
function of the pooled array p : [64,256] and the weights w : [256,16]:

  normalise rows by their Euclidean norm, permute columns by a literal table, square,
  multiply by a literal table of signs, duplicate the 8 columns to 16, relu, multiply by the
  transposed weights, logistic function written as 1 / (1 + exp (-z)).

Each definition below is the literal composition of one program's operations in their printed order,
cut into the same named stages on both sides. -/

namespace Cert.Chains

open Idealize.ShloMosaic Idealize.SL.Sem

noncomputable section

variable {F : FTy → Type} [FloatOps F]

/-! ## The reference -/

section Reference
open Cert.ReferenceIdeal Cert.ReferenceIdeal.Facts₀
variable [Cert.ReferenceIdeal.Facts]

/-- The mean over the two trailing axes: the sum divided by 3136. -/
def meanR (x : FVec F S64x256x56x56 .f32) : FVec F S64x256 .f32 :=
  Host.divf
    (Host.reduceAdd x (constant (F := F) S_ .f32 0x00000000#32) reducesTo_S64x256x56x56_S64x256_d2_3 h_S_)
    (broadcastInDim (s := S_) S64x256 ![] bcast_S_S64x256 (constant (F := F) S_ .f32 0x45440000#32))

/-- The trivial pad (no padding on either side of either axis). -/
def padR (p : FVec F S64x256 .f32) : FVec F S64x256 .f32 :=
  pad (s := S64x256) S64x256 ![0, 0] ![0, 0] ![0, 0] p (sitofp (F := F) .f32 (constantI S_ 32 0#32))
    pads_S64x256_S64x256_000_000 h_S_

/-- The Euclidean norm of each row, as a column. -/
def rowNormR (q : FVec F S64x256 .f32) : FVec F S64x1 .f32 :=
  Host.sqrt (broadcastInDim (s := S64) S64x1 ![0] bcast_S64_S64x1_0
    (Host.reduceAdd (mulf q q) (constant (F := F) S_ .f32 0x00000000#32) reducesTo_S64x256_S64_d1 h_S_))

/-- Each row divided by its Euclidean norm. -/
def unitRowsR (q : FVec F S64x256 .f32) : FVec F S64x256 .f32 :=
  Host.divf q (broadcastInDim (s := S64x1) S64x256 ![0, 1] bcast_S64x1_S64x256_0_1 (rowNormR q))

/-- Stage 1: pad by nothing, then normalise the rows. -/
def normaliseR (p : FVec F S64x256 .f32) : FVec F S64x256 .f32 := unitRowsR (padR p)

/-- The literal permutation table. -/
def permTableR : IVec S256 32 := fun i => lit0 (S256.rowMajor i)

/-- The table after the (vacuous) wrap of negative entries. -/
def permWrapR : IVec S256 32 :=
  select (constantI S256 1 0#1)
    (addi permTableR (broadcastInDim (s := S_) S256 ![] bcast_S_S256 (constantI S_ 32 256#32)))
    permTableR

/-- The wrapped table as a column of start indices. -/
def permIdxR : IVec S256x1 32 :=
  broadcastInDim (s := S256) S256x1 ![0] bcast_S256_S256x1_0 permWrapR

/-- Stage 2: permute the columns. -/
def permuteR (a : FVec F S64x256 .f32) : FVec F S64x256 .f32 :=
  Host.gather gather_S64x256_S256x1_S64x256_0_1_n_n_1_1_641 a permIdxR

/-- The literal table of signs, 256 by 8. -/
def signTableR : FVec F S256x8 .f32 := fun i => FloatOps.ofBits .f32 (lit1 (S256x8.rowMajor i))

/-- Stage 3: square every entry and multiply by the table of signs. -/
def squareDotR (b : FVec F S64x256 .f32) : FVec F S64x8 .f32 :=
  Host.dotGeneral dot_S64x256_S256x8_S64x8_1_0_0_1_n_n none (mulf b b) (signTableR (F := F))

/-- The literal wire table [0..7, 0..7]. -/
def wireTableR : IVec S16 32 := fun i => lit2 (S16.rowMajor i)

/-- The wire table after the (vacuous) wrap of negative entries. -/
def wireWrapR : IVec S16 32 :=
  select (constantI S16 1 0#1)
    (addi wireTableR (broadcastInDim (s := S_) S16 ![] bcast_S_S16 (constantI S_ 32 8#32)))
    wireTableR

/-- The wrapped wire table as a column of start indices. -/
def wireIdxR : IVec S16x1 32 :=
  broadcastInDim (s := S16) S16x1 ![0] bcast_S16_S16x1_0 wireWrapR

/-- Stage 4: duplicate the 8 columns to 16. -/
def wiresR (m : FVec F S64x8 .f32) : FVec F S64x16 .f32 :=
  Host.gather gather_S64x8_S16x1_S64x16_0_1_n_n_1_1_641 m wireIdxR

/-- The maximum with zero. -/
def reluR (q : FVec F S64x16 .f32) : FVec F S64x16 .f32 :=
  maximumf q (broadcastInDim (s := S_) S64x16 ![] bcast_S_S64x16 (constant (F := F) S_ .f32 0x00000000#32))

/-- The logistic function written as 1 / (1 + exp (-z)). -/
def logisticR (z : FVec F S64x256 .f32) : FVec F S64x256 .f32 :=
  Host.divf
    (broadcastInDim (s := S_) S64x256 ![] bcast_S_S64x256 (constant (F := F) S_ .f32 0x3F800000#32))
    (addf
      (broadcastInDim (s := S_) S64x256 ![] bcast_S_S64x256 (constant (F := F) S_ .f32 0x3F800000#32))
      (Host.exp (Host.negf z)))

/-- Stage 5: relu, multiply by the transposed weights, logistic function. -/
def tailR (q : FVec F S64x16 .f32) (w : FVec F S256x16 .f32) : FVec F S64x256 .f32 :=
  logisticR (Host.dotGeneral dot_S64x16_S16x256_S64x256_1_0_0_1_n_n none (reluR q)
    (transpose (s := S256x16) S16x256 [1, 0] w transposes_S256x16_S16x256_1_0))

/-- The reference's gate as a function of the pooled array and the weights. -/
def chainR (p : FVec F S64x256 .f32) (w : FVec F S256x16 .f32) : FVec F S64x256 .f32 :=
  tailR (wiresR (squareDotR (permuteR (normaliseR p)))) w

/-- The reference's result: the input times its gate, the gate constant along the two trailing axes. -/
def gateR (x : FVec F S64x256x56x56 .f32) (s : FVec F S64x256 .f32) : FVec F S64x256x56x56 .f32 :=
  mulf x (broadcastInDim (s := S64x256x1x1) S64x256x56x56 ![0, 1, 2, 3] bcast_S64x256x1x1_S64x256x56x56_0_1_2_3
    (broadcastInDim (s := S64x256) S64x256x1x1 ![0, 1] bcast_S64x256_S64x256x1x1_0_1 s))

end Reference

/-! ## The kernel program's host part -/

section Kernel
open Cert.KernelIdeal Cert.KernelIdeal.Facts₀
variable [Cert.KernelIdeal.Facts]

/-- The trivial pad (no padding on either side of either axis). -/
def padK (p : FVec F S64x256 .f32) : FVec F S64x256 .f32 :=
  pad (s := S64x256) S64x256 ![0, 0] ![0, 0] ![0, 0] p (sitofp (F := F) .f32 (constantI S_ 32 0#32))
    pads_S64x256_S64x256_000_000 h_S_

/-- The Euclidean norm of each row, as a column. -/
def rowNormK (q : FVec F S64x256 .f32) : FVec F S64x1 .f32 :=
  Host.sqrt (broadcastInDim (s := S64) S64x1 ![0] bcast_S64_S64x1_0
    (Host.reduceAdd (mulf q q) (constant (F := F) S_ .f32 0x00000000#32) reducesTo_S64x256_S64_d1 h_S_))

/-- Each row divided by its Euclidean norm. -/
def unitRowsK (q : FVec F S64x256 .f32) : FVec F S64x256 .f32 :=
  Host.divf q (broadcastInDim (s := S64x1) S64x256 ![0, 1] bcast_S64x1_S64x256_0_1 (rowNormK q))

/-- Stage 1: pad by nothing, then normalise the rows. -/
def normaliseK (p : FVec F S64x256 .f32) : FVec F S64x256 .f32 := unitRowsK (padK p)

/-- The literal permutation table. -/
def permTableK : IVec S256 32 := fun i => lit0 (S256.rowMajor i)

/-- The table with its negative entries wrapped by the axis length 256. -/
def permWrapK : IVec S256 32 :=
  select (cmpi .slt permTableK (broadcastInDim (s := S_) S256 ![] bcast_S_S256 (constantI S_ 32 0#32)))
    (addi permTableK (broadcastInDim (s := S_) S256 ![] bcast_S_S256 (constantI S_ 32 256#32)))
    permTableK

/-- The wrapped table as a column of start indices. -/
def permIdxK : IVec S256x1 32 :=
  broadcastInDim (s := S256) S256x1 ![0] bcast_S256_S256x1_0 permWrapK

/-- Per table entry: is the wrapped index inside the axis, 0 ≤ index ≤ 255? -/
def permMaskK : IVec S256 1 :=
  Host.reduce IntOp.andi
    (andi
      (cmpi .sge permIdxK (broadcastInDim (s := S_) S256x1 ![] bcast_S_S256x1 (constantI S_ 32 0#32)))
      (cmpi .sle permIdxK (broadcastInDim (s := S1x1) S256x1 ![0, 1] bcast_S1x1_S256x1_0_1
        (broadcastInDim (s := S1) S1x1 ![1] bcast_S1_S1x1_1 (constantI S1 32 255#32)))))
    (constantI S_ 1 1#1) reducesTo_S256x1_S256_d1 h_S_

/-- Stage 2: permute the columns; a column whose index falls outside the axis is filled with NaN. -/
def permuteK (a : FVec F S64x256 .f32) : FVec F S64x256 .f32 :=
  select (broadcastInDim (s := S256) S64x256 ![1] bcast_S256_S64x256_1 permMaskK)
    (Host.gather gather_S64x256_S256x1_S64x256_0_1_n_n_1_1_641 a permIdxK)
    (broadcastInDim (s := S_) S64x256 ![] bcast_S_S64x256 (constant (F := F) S_ .f32 0x7FC00000#32))

/-- The literal table of signs as the program holds it, 8 by 256. -/
def signTableK : FVec F S8x256 .f32 := fun i => FloatOps.ofBits .f32 (lit1 (S8x256.rowMajor i))

/-- Stage 3: square every entry and multiply by the transposed table of signs. -/
def squareDotK (b : FVec F S64x256 .f32) : FVec F S64x8 .f32 :=
  Host.dotGeneral dot_S64x256_S256x8_S64x8_1_0_0_1_n_n none (mulf b b)
    (transpose (s := S8x256) S256x8 [1, 0] (signTableK (F := F)) transposes_S8x256_S256x8_1_0)

/-- The literal wire table [0..7, 0..7]. -/
def wireTableK : IVec S16 32 := fun i => lit2 (S16.rowMajor i)

/-- The wire table with its negative entries wrapped by the axis length 8. -/
def wireWrapK : IVec S16 32 :=
  select (cmpi .slt wireTableK (broadcastInDim (s := S_) S16 ![] bcast_S_S16 (constantI S_ 32 0#32)))
    (addi wireTableK (broadcastInDim (s := S_) S16 ![] bcast_S_S16 (constantI S_ 32 8#32)))
    wireTableK

/-- The wrapped wire table as a column of start indices. -/
def wireIdxK : IVec S16x1 32 :=
  broadcastInDim (s := S16) S16x1 ![0] bcast_S16_S16x1_0 wireWrapK

/-- Per wire: is the wrapped index inside the axis, 0 ≤ index ≤ 7? -/
def wireMaskK : IVec S16 1 :=
  Host.reduce IntOp.andi
    (andi
      (cmpi .sge wireIdxK (broadcastInDim (s := S_) S16x1 ![] bcast_S_S16x1 (constantI S_ 32 0#32)))
      (cmpi .sle wireIdxK (broadcastInDim (s := S1x1) S16x1 ![0, 1] bcast_S1x1_S16x1_0_1
        (broadcastInDim (s := S1) S1x1 ![1] bcast_S1_S1x1_1 (constantI S1 32 7#32)))))
    (constantI S_ 1 1#1) reducesTo_S16x1_S16_d1 h_S_

/-- Stage 4: duplicate the 8 columns to 16; a wire whose index falls outside the axis is filled with NaN. -/
def wiresK (m : FVec F S64x8 .f32) : FVec F S64x16 .f32 :=
  select (broadcastInDim (s := S16) S64x16 ![1] bcast_S16_S64x16_1 wireMaskK)
    (Host.gather gather_S64x8_S16x1_S64x16_0_1_n_n_1_1_641 m wireIdxK)
    (broadcastInDim (s := S_) S64x16 ![] bcast_S_S64x16 (constant (F := F) S_ .f32 0x7FC00000#32))

/-- The maximum with zero. -/
def reluK (q : FVec F S64x16 .f32) : FVec F S64x16 .f32 :=
  maximumf q (broadcastInDim (s := S_) S64x16 ![] bcast_S_S64x16 (constant (F := F) S_ .f32 0x00000000#32))

/-- The logistic function written as 1 / (1 + exp (-z)). -/
def logisticK (z : FVec F S64x256 .f32) : FVec F S64x256 .f32 :=
  Host.divf
    (broadcastInDim (s := S_) S64x256 ![] bcast_S_S64x256 (constant (F := F) S_ .f32 0x3F800000#32))
    (addf
      (broadcastInDim (s := S_) S64x256 ![] bcast_S_S64x256 (constant (F := F) S_ .f32 0x3F800000#32))
      (Host.exp (Host.negf z)))

/-- Stage 5: relu, multiply by the transposed weights, logistic function. -/
def tailK (q : FVec F S64x16 .f32) (w : FVec F S256x16 .f32) : FVec F S64x256 .f32 :=
  logisticK (Host.dotGeneral dot_S64x16_S16x256_S64x256_1_0_0_1_n_n none (reluK q)
    (transpose (s := S256x16) S16x256 [1, 0] w transposes_S256x16_S16x256_1_0))

/-- The kernel program's gate as a function of the pooled array and the weights. -/
def chainK (p : FVec F S64x256 .f32) (w : FVec F S256x16 .f32) : FVec F S64x256 .f32 :=
  tailK (wiresK (squareDotK (permuteK (normaliseK p)))) w

end Kernel

end

end Cert.Chains
-- ==== Proof.KIChainRun.lean ====
/-
  What the second region finds: after the nine stretches of host operations the gate buffer holds the host
  computation (row normalisation, permutation, squares against the table of signs, wire duplication, relu, the
  product with the transposed weights, the logistic function) of the pooled array the first region left and of the
  weight matrix as launched; the input array is still as launched.  The three literal tables are written by the first
  stretch and pass the first region untouched.
-/
import proofs.«103365_j15401752724153_1_alg».proof.Proof.KIRun
import proofs.«103365_j15401752724153_1_alg».proof.Proof.Chains

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable {F : FTy → Type} [FloatOps F]
variable (m : (ℓ : Loc nD τ sig) → Buf (Elt F) ℓ) (ρ : Dev nD → PrngReg)

/-- The permutation table, as the first stretch writes it, is still there when the first region has run. -/
theorem W2_main_c (c : Dev nD) : W2 m ρ c (Proc.devRef .tc main_c) = Cert.Chains.permTableK := by
  rw [W2_of_ne m ρ c main_c (by decide)]
  dsimp only [W1, hostOps0]; after_results; rfl
/-- The table of signs likewise. -/
theorem W2_main_cst (c : Dev nD) : W2 m ρ c (Proc.devRef .tc main_cst) = Cert.Chains.signTableK (F := F) := by
  rw [W2_of_ne m ρ c main_cst (by decide)]
  dsimp only [W1, hostOps0]; after_results; rfl
/-- The wire table likewise. -/
theorem W2_main_c_0 (c : Dev nD) : W2 m ρ c (Proc.devRef .tc main_c_0) = Cert.Chains.wireTableK := by
  rw [W2_of_ne m ρ c main_c_0 (by decide)]
  dsimp only [W1, hostOps0]; after_results; rfl
/-- The weight matrix is as launched. -/
theorem W2_main_arg1 (c : Dev nD) : W2 m ρ c (Proc.devRef .tc main_arg1) = m ((c : Thread nD τ).loc main_arg1) := by
  rw [W2_of_ne m ρ c main_arg1 (by decide)]
  exact StableHlo.after_of_writes_sub hostOps0 _ hostOps0_writes (by decide)

/-! ## One stretch at a time -/

theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h

/-- The pad value's integer zero, written by the stretch before. -/
theorem W3_c_1 (c : Dev nD) : W3 m ρ c (Proc.devRef .tc main_c_1) = constantI S_ 32 0#32 := by
  dsimp only [W3, hostOps1]; after_results

/-- The pad by nothing. -/
theorem W4_v1 (c : Dev nD) : W3 m ρ c (Proc.devRef .tc main_c_1) = constantI S_ 32 0#32 → W4 m ρ c (Proc.devRef .tc main_v1) = Cert.Chains.padK (W3 m ρ c (Proc.devRef .tc main_v0)) := by
  intro hc

  dsimp only [W4]
  generalize W3 m ρ c = Wx at *
  dsimp only [hostOps1_1]
  after_results_simp
  rw [hc]
  rfl

/-- The rows' Euclidean norms. -/
theorem W5_v2 (c : Dev nD) : W5 m ρ c (Proc.devRef .tc main_v2) = Cert.Chains.rowNormK (W4 m ρ c (Proc.devRef .tc main_v1)) := by

  dsimp only [W5]
  generalize W4 m ρ c = Wx at *
  dsimp only [hostOps1_2]
  after_results_simp
  rfl

/-- The rows divided by their norms, given the norms. -/
theorem W6_v4 (c : Dev nD) : W6 m ρ c (Proc.devRef .tc main_v4) = Host.divf (W5 m ρ c (Proc.devRef .tc main_v1)) (broadcastInDim (s := S64x1) S64x256 ![0, 1] bcast_S64x1_S64x256_0_1 (W5 m ρ c (Proc.devRef .tc main_v2))) := by

  dsimp only [W6]
  generalize W5 m ρ c = Wx at *
  dsimp only [hostOps1_3]
  after_results_simp

set_option maxHeartbeats 4000000 in
/-- The permutation of the columns, the table being the literal one. -/
theorem W7_v5 (c : Dev nD) : W6 m ρ c (Proc.devRef .tc main_c) = Cert.Chains.permTableK → W7 m ρ c (Proc.devRef .tc main_v5) = Cert.Chains.permuteK (W6 m ρ c (Proc.devRef .tc main_v4)) := by
  intro hc

  dsimp only [W7]
  generalize W6 m ρ c = Wx at *
  dsimp only [hostOps1_4]
  after_results_simp
  rw [hc]
  rfl

/-- The squares against the table of signs. -/
theorem W8_v8 (c : Dev nD) : W7 m ρ c (Proc.devRef .tc main_cst) = Cert.Chains.signTableK (F := F) → W8 m ρ c (Proc.devRef .tc main_v8) = Cert.Chains.squareDotK (W7 m ρ c (Proc.devRef .tc main_v5)) := by
  intro hc

  dsimp only [W8]
  generalize W7 m ρ c = Wx at *
  dsimp only [hostOps1_5]
  after_results_simp
  rw [hc]
  rfl

set_option maxHeartbeats 4000000 in
/-- The wires. -/
theorem W9_v9 (c : Dev nD) : W8 m ρ c (Proc.devRef .tc main_c_0) = Cert.Chains.wireTableK → W9 m ρ c (Proc.devRef .tc main_v9) = Cert.Chains.wiresK (W8 m ρ c (Proc.devRef .tc main_v8)) := by
  intro hc

  dsimp only [W9]
  generalize W8 m ρ c = Wx at *
  dsimp only [hostOps1_6]
  after_results_simp
  rw [hc]
  rfl

/-- The maximum with zero. -/
theorem W10_v10 (c : Dev nD) : W10 m ρ c (Proc.devRef .tc main_v10) = Cert.Chains.reluK (W9 m ρ c (Proc.devRef .tc main_v9)) := by

  dsimp only [W10]
  generalize W9 m ρ c = Wx at *
  dsimp only [hostOps1_7]
  after_results_simp
  rfl

/-- The product with the transposed weights and the logistic function. -/
theorem W11_v18 (c : Dev nD) : W11 m ρ c (Proc.devRef .tc main_v18) = Cert.Chains.logisticK (Host.dotGeneral dot_S64x16_S16x256_S64x256_1_0_0_1_n_n none (W10 m ρ c (Proc.devRef .tc main_v10)) (transpose (s := S256x16) S16x256 [1, 0] (W10 m ρ c (Proc.devRef .tc main_arg1)) transposes_S256x16_S16x256_1_0)) := by

  dsimp only [W11]
  generalize W10 m ρ c = Wx at *
  dsimp only [hostOps1_8]
  after_results_simp
  rfl

/-- The gate array entering the second region: the host computation of the pooled array and the weights. -/
theorem gate_read (c : Dev nD) :
    Vr1 m ρ c main_v18 = Cert.Chains.chainK (W2 m ρ c (Proc.devRef .tc main_v0)) (m ((c : Thread nD τ).loc main_arg1)) := by
  show W11 m ρ c (Proc.devRef .tc main_v18) = _
  have e1 : W10 m ρ c (Proc.devRef .tc main_arg1) = m ((c : Thread nD τ).loc main_arg1) :=
    ((((((((W10_of m ρ c main_arg1 (by decide)).trans (W9_of m ρ c main_arg1 (by decide))).trans (W8_of m ρ c main_arg1 (by decide))).trans (W7_of m ρ c main_arg1 (by decide))).trans (W6_of m ρ c main_arg1 (by decide))).trans (W5_of m ρ c main_arg1 (by decide))).trans (W4_of m ρ c main_arg1 (by decide))).trans (W3_of m ρ c main_arg1 (by decide))).trans (W2_main_arg1 m ρ c)
  have e2 : W8 m ρ c (Proc.devRef .tc main_c_0) = Cert.Chains.wireTableK := ((((((W8_of m ρ c main_c_0 (by decide)).trans (W7_of m ρ c main_c_0 (by decide))).trans (W6_of m ρ c main_c_0 (by decide))).trans (W5_of m ρ c main_c_0 (by decide))).trans (W4_of m ρ c main_c_0 (by decide))).trans (W3_of m ρ c main_c_0 (by decide))).trans (W2_main_c_0 m ρ c)
  have e3 : W7 m ρ c (Proc.devRef .tc main_cst) = Cert.Chains.signTableK (F := F) := (((((W7_of m ρ c main_cst (by decide)).trans (W6_of m ρ c main_cst (by decide))).trans (W5_of m ρ c main_cst (by decide))).trans (W4_of m ρ c main_cst (by decide))).trans (W3_of m ρ c main_cst (by decide))).trans (W2_main_cst m ρ c)
  have e4 : W6 m ρ c (Proc.devRef .tc main_c) = Cert.Chains.permTableK := ((((W6_of m ρ c main_c (by decide)).trans (W5_of m ρ c main_c (by decide))).trans (W4_of m ρ c main_c (by decide))).trans (W3_of m ρ c main_c (by decide))).trans (W2_main_c m ρ c)
  have e5 : W5 m ρ c (Proc.devRef .tc main_v1) = W4 m ρ c (Proc.devRef .tc main_v1) := (W5_of m ρ c main_v1 (by decide))
  have e6 : W3 m ρ c (Proc.devRef .tc main_v0) = W2 m ρ c (Proc.devRef .tc main_v0) := (W3_of m ρ c main_v0 (by decide))
  rw [W11_v18 m ρ c, e1, W10_v10 m ρ c, W9_v9 m ρ c e2, W8_v8 m ρ c e3, W7_v5 m ρ c e4, W6_v4 m ρ c, W5_v2 m ρ c, e5, W4_v1 m ρ c (W3_c_1 m ρ c), e6]
  rfl

/-- The input array entering the second region is as launched. -/
theorem Vr1_main_arg0 (c : Dev nD) : Vr1 m ρ c main_arg0 = m ((c : Thread nD τ).loc main_arg0) := by
  have h := W12_main_arg0 m ρ c
  rw [W12_arr m ρ c 0, (dat1 (Vr1 m ρ) c).arrAt_in 0 rfl _, A_eq1 (Vr1 m ρ) c 0] at h
  exact h
/-- The input array entering the first region is as launched. -/
theorem Vr0_main_arg0 (c : Dev nD) : Vr0 m ρ c main_arg0 = m ((c : Thread nD τ).loc main_arg0) :=
  StableHlo.after_of_writes_sub hostOps0 _ hostOps0_writes (by decide)

end Cert.KernelIdeal.Hand

end
-- ==== Proof.KIPoolValue.lean ====
/-
  Region 0, the mean-pool kernel, at the ideal values: what its result array holds when the region is left.
  Entry (b, ch) of the result is the mean of plane (b, ch) of the input — the sum of its 56 × 56 entries divided
  by 3136. At a grid point the body sums the staged 8 × 128 × 56 × 56 block over its last axis, then over the one
  before it, each from a zero accumulator, and divides by 3136: entry (p, q) of what it stores is the mean of
  plane (p, q) of the block. The block at point (i, j) is the input at batch rows 8i … 8i + 7 and channels
  128j … 128j + 127 with the whole plane, and the stored 8 × 128 piece is written back at the same rows and
  channels; the 8 × 2 points' pieces tile the 64 × 256 result. The reference sums over both plane axes at once,
  from a zero initial value, and divides by the same constant: the same finite sum over the same 3136 indices.
  Sums over the extended reals are sums in a commutative monoid, so no entry need be finite.
-/
import proofs.«103365_j15401752724153_1_alg».proof.Proof.KIPool
import proofs.«103365_j15401752724153_1_alg».proof.Proof.Chains
import Idealize.ShloMosaic.Lib.Pipeline.Value
import Idealize.ShloMosaic.Lib.ValueIdx
import Idealize.ShloMosaic.PureOps.Ideal.Laws

set_option maxRecDepth 16384

noncomputable section

open Cert.KernelIdeal Cert.KernelIdeal.Gen
open Idealize.ShloMosaic Idealize.ShloMosaic.TcCoe Idealize.ShloMosaic.Tactic
open Idealize.ShloMosaic.ValueIdx
open Idealize.SL.Sem
open Idealize.ShloMosaic.Pipeline (Dat Cfg Window)

namespace Cert.KernelIdeal.Hand.Pool

variable {F : FTy → Type} [FloatOps F]

/-! ## The specification -/

/-- The mean of one 56 × 56 plane of a four-axis array: the sum of its 3136 entries divided by 3136. -/
def planeMean {n0 n1 : Nat} (x : (⟨4, ![n0, n1, 56, 56]⟩ : Shape).Idx → EReal) (b : Fin n0) (ch : Fin n1) : EReal :=
  Ideal.div (∑ h : Fin 56, ∑ v : Fin 56, x (ix4 b ch h v)) (Ideal.ofBits .f32 0x45440000#32)

/-- The pooled array: entry (b, ch) is the mean of plane (b, ch). -/
def pooled (x : S64x256x56x56.Idx → EReal) : S64x256.Idx → EReal := fun i => planeMean x (i 0) (i 1)

/-! ## What the body stores, at an index -/

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- The one store is of the whole buffer and the one load is of the whole block: the result's staging buffer is
    left holding the stored value of the block. -/
theorem out0_1_eq (x0 : Vec F S8x128x56x56 .f32) : out0_1 x0 = k0_pay1 x0 := by
  unfold out0_1
  rw [View.canon_unit_zero zeros2]
  simp only [View.ld_unit_zero (S := S8x128x56x56) zeros4]

/-- Putting the coordinate of axis 2 and then that of axis 3 back into a two-axis index gives the four-axis index. -/
theorem lift_lift (p : Fin 8) (q : Fin 128) (h : Fin 56) (v : Fin 56) :
    reduces_S8x128x56x56_S8x128x56.lift (reduces_S8x128x56_S8x128.lift (ix2 p q) h) v = ix4 p q h v := by
  funext a
  match a with
  | ⟨0, _⟩ => rfl
  | ⟨1, _⟩ => rfl
  | ⟨2, _⟩ => rfl
  | ⟨3, _⟩ => rfl

/-- The stored value at (p, q) is the mean of plane (p, q) of the loaded block: the sum over the last axis, then
    over the one before it, each from a zero accumulator, divided by 3136. -/
theorem pay_apply (x0 : Vec Ideal S8x128x56x56 .f32) (p : Fin 8) (q : Fin 128) :
    k0_pay1 (F := Ideal) x0 (ix2 p q) = planeMean x0 p q := by
  unfold k0_pay1 planeMean
  show Ideal.div (multiReduction (F := Ideal) .add [2] S8x128 _ 0x00000000#32 reduces_S8x128x56_S8x128 (.inl rfl) rfl (ix2 p q)) _ = _
  refine congrArg (fun s => Ideal.div s _) ?_
  refine (Ideal.multiReduction_add_single _ _ reduces_S8x128x56_S8x128 _ _ (ix2 p q)).trans ?_
  refine Finset.sum_congr rfl fun h _ => ?_
  refine (Ideal.multiReduction_add_single x0 _ reduces_S8x128x56x56_S8x128x56 _ _ _).trans ?_
  refine Finset.sum_congr rfl fun v _ => ?_
  exact congrArg x0 (lift_lift p q h v)

/-- So an entry of the result's staging buffer after the body is a plane mean of the input block. -/
theorem out0_1_apply (x0 : Vec Ideal S8x128x56x56 .f32) (p : Fin 8) (q : Fin 128) :
    out0_1 (F := Ideal) x0 (ix2 p q) = planeMean x0 p q := by
  rw [out0_1_eq]; exact pay_apply x0 p q

/-! ## From blocks to the array -/

variable (V : (c : Dev nD) → (b : Ref sig .tc) → Buf (Elt Ideal) ((c : Thread nD τ).loc b))

/-- The two windows' block indices over the grid: the input's block moves with the result's on the first two axes
    and stays at 0 on the plane's two; the result's block indices stay below 8 and 2. -/
theorem block_indices : ∀ t : Fin cfg0.N, win0_0.index t (0 : Fin 4) = win0_1.index t (0 : Fin 2)
    ∧ win0_0.index t (1 : Fin 4) = win0_1.index t (1 : Fin 2)
    ∧ win0_0.index t (2 : Fin 4) = 0 ∧ win0_0.index t (3 : Fin 4) = 0
    ∧ win0_1.index t (0 : Fin 2) ≤ 7 ∧ win0_1.index t (1 : Fin 2) ≤ 1 :=
  (by decide +kernel : ∀ t : Fin grid0.N, _)

/-- Every block of the result is some point's. -/
theorem block_onto : ∀ (q0 : Fin 8) (q1 : Fin 2), ∃ t : Fin cfg0.N, win0_1.index t = ![q0.val, q1.val] :=
  (by decide +kernel : ∀ (q0 : Fin 8) (q1 : Fin 2), ∃ t : Fin grid0.N, win0_1.index t = ![q0.val, q1.val])

/-- A plane mean of the block of `X` the point stages is the plane mean of `X` at the block's place. -/
theorem planeMean_block (x0 : Vec Ideal S8x128x56x56 .f32) (X : S64x256x56x56.Idx → EReal) (p : Fin 8) (q : Fin 128)
    (b : Fin 64) (ch : Fin 256) (hx : ∀ h v : Fin 56, x0 (ix4 p q h v) = X (ix4 b ch h v)) :
    planeMean x0 p q = planeMean X b ch := by
  unfold planeMean
  refine congrArg (fun s => Ideal.div s _) ?_
  exact Finset.sum_congr rfl fun h _ => Finset.sum_congr rfl fun v _ => hx h v

/-- What point `t` writes back is block `t` of the pooled array of the input as the region finds it. -/
theorem pool_flushed (c : Dev nD) (t : Fin cfg0.N) :
    (dat0 (F := Ideal) V c).flushed 1 t = ((cfg0.win 1).blk t).view.read (Elt Ideal) (pooled (V c main_arg0)) := by
  show (cfg0.win 1).cut (grid0.coords t) ((dat0 V c).after 1 t) = _
  rw [after0_1]
  obtain ⟨e0, e1, e2, e3, -, -⟩ := block_indices t
  funext j
  obtain ⟨p, q, rfl⟩ : ∃ (p : Fin 8) (q : Fin 128), j = ix2 p q := ⟨j 0, j 1, eq_ix2 j⟩
  show out0_1 (F := Ideal) (iblk0 V c 0 t) (ix2 p q) = pooled (V c main_arg0) (((cfg0.win 1).blk t).view.emb (ix2 p q))
  rw [out0_1_apply]
  unfold pooled
  refine planeMean_block _ _ p q _ _ fun h v => ?_
  show V c main_arg0 (((cfg0.win 0).blk t).view.emb (ix4 p q h v)) = V c main_arg0 _
  refine congrArg (V c main_arg0) ?_
  funext a; apply Fin.ext
  match a with
  | ⟨0, _⟩ => show win0_0.index t (0 : Fin 4) * 8 + 1 * p.val = win0_1.index t (0 : Fin 2) * 8 + 1 * p.val; omega
  | ⟨1, _⟩ => show win0_0.index t (1 : Fin 4) * 128 + 1 * q.val = win0_1.index t (1 : Fin 2) * 128 + 1 * q.val; omega
  | ⟨2, _⟩ => show win0_0.index t (2 : Fin 4) * 56 + 1 * h.val = h.val; omega
  | ⟨3, _⟩ => show win0_0.index t (3 : Fin 4) * 56 + 1 * v.val = v.val; omega

/-- An index of the result is in point `t`'s block iff each coordinate is in the block's range on its axis. -/
theorem mem_block (t : Fin cfg0.N) (i : S64x256.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0).slice (win0_1.rect t)).set ↔ _
  rw [View.set_slice_whole, Rect.mem_set_unit]
  exact Iff.rfl

/-- Entry (b, ch) of the result lies in the block of the point whose block indices are (b / 8, ch / 128). -/
theorem covered (i : S64x256.Idx) : ∃ t : Fin cfg0.N, (cfg0.win 1).flush t = true ∧ i ∈ ((cfg0.win 1).blk t).view.set := by
  have hi0 : (i 0).val < 64 := (i 0).isLt
  have hi1 : (i 1).val < 256 := (i 1).isLt
  obtain ⟨t, ht⟩ := block_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_block]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- The result array after the region: the pooled array of the input. -/
theorem pool_final_pooled (c : Dev nD) : (dat0 (F := Ideal) V c).arrAt 1 cfg0.N = pooled (V c main_arg0) :=
  (dat0 V c).arrAt_eq_of_cover 1 (pooled (V c main_arg0)) (fun t _ => pool_flushed V c t) covered

/-! ## The reference's mean is the pooled array -/

section Reference
open Cert.ReferenceIdeal.Facts₀
variable [Cert.ReferenceIdeal.Facts]

/-- Dropping the plane's two axes of (b, ch, h, v) leaves (b, ch). -/
theorem drop_ix4 (b : Fin 64) (ch : Fin 256) (h v : Fin 56) :
    reducesTo_S64x256x56x56_S64x256_d2_3.drop (ix4 b ch h v) = ix2 b ch := by
  funext a
  match a with
  | ⟨0, _⟩ => rfl
  | ⟨1, _⟩ => rfl

/-- An index that drops to (b, ch) is (b, ch, its own two plane coordinates). -/
theorem eq_ix4_of_drop (i : Cert.ReferenceIdeal.S64x256x56x56.Idx) (b : Fin 64) (ch : Fin 256)
    (hd : reducesTo_S64x256x56x56_S64x256_d2_3.drop i = ix2 b ch) : ix4 b ch (i 2) (i 3) = i := by
  have h0 : i 0 = b := congrFun hd 0
  have h1 : i 1 = ch := congrFun hd 1
  funext a
  match a with
  | ⟨0, _⟩ => exact h0.symm
  | ⟨1, _⟩ => exact h1.symm
  | ⟨2, _⟩ => rfl
  | ⟨3, _⟩ => rfl

/-- The plane (b, ch) as a set of indices of the array: one index for each pair of plane coordinates. -/
def planeEmb (b : Fin 64) (ch : Fin 256) : Fin 56 × Fin 56 ↪ Cert.ReferenceIdeal.S64x256x56x56.Idx :=
  ⟨fun hv => ix4 b ch hv.1 hv.2, fun hv hv' e => Prod.ext (congrFun e 2) (congrFun e 3)⟩

/-- The indices the reduction sums at (b, ch) are exactly those of plane (b, ch). -/
theorem filter_drop (b : Fin 64) (ch : Fin 256) :
    Finset.univ.filter (fun i : Cert.ReferenceIdeal.S64x256x56x56.Idx => reducesTo_S64x256x56x56_S64x256_d2_3.drop i = ix2 b ch)
      = Finset.univ.map (planeEmb b ch) := by
  ext i
  simp only [Finset.mem_filter, Finset.mem_univ, true_and, Finset.mem_map, planeEmb, Function.Embedding.coeFn_mk]
  exact ⟨fun hd => ⟨(i 2, i 3), eq_ix4_of_drop i b ch hd⟩, fun ⟨hv, e⟩ => e ▸ drop_ix4 b ch hv.1 hv.2⟩

/-- The reference's first stage — the sum over the two trailing axes from a zero initial value, divided by the
    constant 3136 broadcast to every entry — is the pooled array. A finite sum over the extended reals does not
    depend on how its index set is enumerated, so no entry need be finite. -/
theorem meanR_eq_pooled (x : FVec Ideal Cert.ReferenceIdeal.S64x256x56x56 .f32) :
    Cert.Chains.meanR (F := Ideal) x = pooled x := by
  funext i
  obtain ⟨b, ch, rfl⟩ : ∃ (b : Fin 64) (ch : Fin 256), i = ix2 b ch := ⟨i 0, i 1, eq_ix2 i⟩
  show Ideal.div (Ideal.ofBits .f32 0x00000000#32
        + ∑ k ∈ Finset.univ.filter (fun k : Cert.ReferenceIdeal.S64x256x56x56.Idx => reducesTo_S64x256x56x56_S64x256_d2_3.drop k = ix2 b ch), x k)
      (Ideal.ofBits .f32 0x45440000#32)
    = Ideal.div (∑ h : Fin 56, ∑ v : Fin 56, x (ix4 b ch h v)) (Ideal.ofBits .f32 0x45440000#32)
  rw [Ideal.ofBits_zero_f32, zero_add, filter_drop, Finset.sum_map, Fintype.sum_prod_type]
  rfl

end Reference

end Cert.KernelIdeal.Hand.Pool

namespace Cert.KernelIdeal.Hand

variable (V : (c : Dev nD) → (b : Ref sig .tc) → Buf (Elt Ideal) ((c : Thread nD τ).loc b))

/-- The result array after the region is the reference's mean, over the two trailing axes, of the input as the
    region finds it. -/
theorem pool_final [Cert.ReferenceIdeal.Facts] (c : Dev nD) :
    (dat0 (F := Ideal) V c).arrAt 1 cfg0.N = Cert.Chains.meanR (F := Ideal) (V c main_arg0) :=
  (Pool.pool_final_pooled V c).trans (Pool.meanR_eq_pooled (V c main_arg0)).symm

/-- The input array is never written back: it ends as the region finds it. -/
theorem pool_kept0 (c : Dev nD) : (dat0 (F := Ideal) V c).arrAt 0 cfg0.N = V c main_arg0 :=
  ((dat0 V c).arrAt_in 0 rfl _).trans (A_eq0 V c 0)

end Cert.KernelIdeal.Hand

end
-- ==== Proof.KIScaleValue.lean ====
/-
  Region 1, the gate-multiply kernel, at the ideal instance: the array its result ends holding.  Grid point
  (i, j, k) writes back, onto the rows of the plane inside the array, the product of the input's block
  (i, j, k, 0) with the gate's block (i, j): entry (b, ch, r, col) of the block times the gate's entry (b, ch).
  That is block (i, j, k, 0) of ONE function of the two arrays, x · s broadcast along the plane; and row r of
  the plane lies in the block with k = r / 32 (rows 0‥31 at k = 0, rows 32‥55 at k = 1, the part of that block
  inside the array).  So the 32 write-backs leave the result array holding x · s everywhere, and the two inputs
  end as they were entered.
-/
import proofs.«103365_j15401752724153_1_alg».proof.Proof.KIScale
import proofs.«103365_j15401752724153_1_alg».proof.Proof.Chains
import proofs.«103365_j15401752724153_1_alg».proof.Proof.Gen.ReferenceIdeal
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

/-! ## The two sides at an index -/

/-- The broadcast gate block at an entry is the gate block's entry of the same batch row and channel. -/
theorem gate1_apply {F : FTy → Type} [FloatOps F] (s : Vec F S8x128 .f32) (b : Fin 8) (ch : Fin 128) (r : Fin 32) (col : Fin 56) :
    gate1 s (ix4 b ch r col) = s (ix2 b ch) := by
  unfold gate1
  refine (broadcastTo_apply _ _ (ix4 b ch r col) (ix4 b ch 0 0) ?_).trans ?_
  · intro a
    match a with
    | ⟨0, _⟩ => rfl
    | ⟨1, _⟩ => rfl
    | ⟨2, _⟩ => rfl
    | ⟨3, _⟩ => rfl
  refine (shapeCast_apply _ _ (ix4 b ch 0 0) (ix2 b ch) ?_).trans ?_
  · rw [Shape.rowMajor_val_two, Shape.rowMajor_val_four]
    show b.val * 128 + ch.val = ((b.val * 128 + ch.val) * 1 + 0) * 1 + 0
    omega
  rw [shapeCast_self]

theorem gate1_apply' {F : FTy → Type} [FloatOps F] (s : Vec F S8x128 .f32) (j : S8x128x32x56.Idx) :
    gate1 s j = s (ix2 (j 0) (j 1)) := by
  obtain ⟨b, ch, r, col, rfl⟩ : ∃ (b : Fin 8) (ch : Fin 128) (r : Fin 32) (col : Fin 56), j = ix4 b ch r col :=
    ⟨j 0, j 1, j 2, j 3, eq_ix4 j⟩
  exact gate1_apply s b ch r col

/-- The reference's last stage at an entry: the input's entry times the gate's entry of its batch row and channel. -/
theorem gateR_apply (x : FVec Ideal Cert.ReferenceIdeal.S64x256x56x56 .f32) (s : FVec Ideal Cert.ReferenceIdeal.S64x256 .f32)
    (b : Fin 64) (ch : Fin 256) (r : Fin 56) (col : Fin 56) :
    Cert.Chains.gateR x s (ix4 b ch r col) = x (ix4 b ch r col) * s (ix2 b ch) := by
  unfold Cert.Chains.gateR
  rw [mulf_apply]
  congr 1
  refine (broadcastInDim_apply _ _ _ (ix4 b ch r col) (ix4 b ch 0 0) ?_).trans ?_
  · intro a
    match a with
    | ⟨0, _⟩ => rfl
    | ⟨1, _⟩ => rfl
    | ⟨2, _⟩ => rfl
    | ⟨3, _⟩ => rfl
  refine (broadcastInDim_apply _ _ _ (ix4 b ch 0 0) (ix2 b ch) ?_).trans rfl
  intro a
  match a with
  | ⟨0, _⟩ => rfl
  | ⟨1, _⟩ => rfl

theorem gateR_apply' (x : FVec Ideal Cert.ReferenceIdeal.S64x256x56x56 .f32) (s : FVec Ideal Cert.ReferenceIdeal.S64x256 .f32)
    (i : Cert.ReferenceIdeal.S64x256x56x56.Idx) :
    Cert.Chains.gateR x s i = x i * s (ix2 (i 0) (i 1)) := by
  obtain ⟨b, ch, r, col, rfl⟩ : ∃ (b : Fin 64) (ch : Fin 256) (r : Fin 56) (col : Fin 56), i = ix4 b ch r col :=
    ⟨i 0, i 1, i 2, i 3, eq_ix4 i⟩
  exact gateR_apply x s b ch r col

/-! ## From blocks to the array -/

variable (V : (c : Dev nD) → (b : Ref sig .tc) → Buf (Elt Ideal) ((c : Thread nD τ).loc b))

/-- What point `t` writes back is block `t`, its part inside the array, of the input times the broadcast gate. -/
theorem flushed1_2_eq (c : Dev nD) (t : Fin cfg1.N) :
    (dat1 (F := Ideal) V c).flushed 2 t
      = ((cfg1.win 2).blk t).view.read (Elt Ideal) (Cert.Chains.gateR (F := Ideal) (V c main_arg0) (V c main_v18)) := by
  show (cfg1.win 2).cut (grid1.coords t) ((dat1 V c).after 2 t) = _
  rw [after1_2]
  unfold out8 xin8
  show win1_2.cut (grid1.coords t) (win1_2.fill (grid1.coords t) _ _) = _
  rw [win1_2.cut_fill, cut_pay1]
  funext y
  show FloatOps.mulf (F := Ideal) (φ := .f32) (iblk1 V c 0 t y) (gate1 (iblk1 V c 1 t) (win1_2.xinj (grid1.coords t) y))
    = Cert.Chains.gateR (F := Ideal) (V c main_arg0) (V c main_v18) (((cfg1.win 2).blk t).view.emb y)
  rw [gate1_apply', gateR_apply']
  have hx : iblk1 V c 0 t y = V c main_arg0 (((cfg1.win 2).blk t).view.emb y) := rfl
  have hs : iblk1 V c 1 t (ix2 (win1_2.xinj (grid1.coords t) y 0) (win1_2.xinj (grid1.coords t) y 1))
      = V c main_v18 (ix2 (((cfg1.win 2).blk t).view.emb y 0) (((cfg1.win 2).blk t).view.emb y 1)) := by
    show V c main_v18 (((cfg1.win 1).blk t).view.emb (ix2 (win1_2.xinj (grid1.coords t) y 0) (win1_2.xinj (grid1.coords t) y 1))) = _
    congr 1
    funext a; apply Fin.ext
    match a with
    | ⟨0, _⟩ => rfl
    | ⟨1, _⟩ => rfl
  rw [hx, hs]
  rfl

/-- An index of the array is in point `t`'s block iff each coordinate is among the block's coordinates inside the
    array on its axis. -/
theorem mem_blk1_2 (t : Fin cfg1.N) (i : S64x256x56x56.Idx) :
    i ∈ ((cfg1.win 2).blk t).view.set ↔ ∀ a : Fin 4, win1_2.index t a * S8x128x32x56.size a ≤ (i a).val
      ∧ (i a).val < win1_2.index t a * S8x128x32x56.size a + win1_2.xsize (grid1.coords t) a := by
  show i ∈ ((View.whole main_v19).slice (win1_2.rect t)).set ↔ _
  rw [View.set_slice_whole, Rect.mem_set_unit]
  exact Iff.rfl

/-- Every block is some point's, and at that point the transfer moves the whole block but for the last 8 rows of
    the plane's second block (decided over the grid). -/
theorem pts1 : ∀ (q0 : Fin 8) (q1 : Fin 2) (q2 : Fin 2), ∃ t : Fin cfg1.N,
    win1_2.index t (0 : Fin 4) = q0.val ∧ win1_2.index t (1 : Fin 4) = q1.val
    ∧ win1_2.index t (2 : Fin 4) = q2.val ∧ win1_2.index t (3 : Fin 4) = 0
    ∧ win1_2.xsize (grid1.coords t) (0 : Fin 4) = 8 ∧ win1_2.xsize (grid1.coords t) (1 : Fin 4) = 128
    ∧ win1_2.xsize (grid1.coords t) (2 : Fin 4) = 32 - 8 * q2.val ∧ win1_2.xsize (grid1.coords t) (3 : Fin 4) = 56 :=
  (by decide +kernel : ∀ (q0 : Fin 8) (q1 : Fin 2) (q2 : Fin 2), ∃ t : Fin grid1.N, _)

/-- Every index of the result array is in some point's block: batch row b in block b / 8, channel ch in block
    ch / 128, row r of the plane in block r / 32. -/
theorem cover1_2_arr (i : S64x256x56x56.Idx) :
    ∃ t : Fin cfg1.N, (cfg1.win 2).flush t = true ∧ i ∈ ((cfg1.win 2).blk t).view.set := by
  have h0 : (i 0).val < 64 := (i 0).isLt
  have h1 : (i 1).val < 256 := (i 1).isLt
  have h2 : (i 2).val < 56 := (i 2).isLt
  have h3 : (i 3).val < 56 := (i 3).isLt
  obtain ⟨t, e0, e1, e2, e3, s0, s1, s2, s3⟩ :=
    pts1 ⟨(i 0).val / 8, by omega⟩ ⟨(i 1).val / 128, by omega⟩ ⟨(i 2).val / 32, by omega⟩
  have e0' : win1_2.index t (0 : Fin 4) = (i 0).val / 8 := e0
  have e1' : win1_2.index t (1 : Fin 4) = (i 1).val / 128 := e1
  have e2' : win1_2.index t (2 : Fin 4) = (i 2).val / 32 := e2
  have s2' : win1_2.xsize (grid1.coords t) (2 : Fin 4) = 32 - 8 * ((i 2).val / 32) := s2
  refine ⟨t, flush1_2 t, ?_⟩
  rw [mem_blk1_2]
  intro a
  match a with
  | ⟨0, _⟩ =>
    show win1_2.index t (0 : Fin 4) * 8 ≤ (i 0).val ∧ (i 0).val < win1_2.index t (0 : Fin 4) * 8 + win1_2.xsize (grid1.coords t) (0 : Fin 4)
    rw [e0', s0]; omega
  | ⟨1, _⟩ =>
    show win1_2.index t (1 : Fin 4) * 128 ≤ (i 1).val ∧ (i 1).val < win1_2.index t (1 : Fin 4) * 128 + win1_2.xsize (grid1.coords t) (1 : Fin 4)
    rw [e1', s1]; omega
  | ⟨2, _⟩ =>
    show win1_2.index t (2 : Fin 4) * 32 ≤ (i 2).val ∧ (i 2).val < win1_2.index t (2 : Fin 4) * 32 + win1_2.xsize (grid1.coords t) (2 : Fin 4)
    rw [e2', s2']; omega
  | ⟨3, _⟩ =>
    show win1_2.index t (3 : Fin 4) * 56 ≤ (i 3).val ∧ (i 3).val < win1_2.index t (3 : Fin 4) * 56 + win1_2.xsize (grid1.coords t) (3 : Fin 4)
    rw [e3, s3]; omega

/-- The result array after the region's 32 write-backs: the input times its gate. -/
theorem scale_final (c : Dev nD) :
    (dat1 (F := Ideal) V c).arrAt 2 cfg1.N = Cert.Chains.gateR (F := Ideal) (V c main_arg0) (V c main_v18) :=
  (dat1 (F := Ideal) V c).arrAt_eq_of_cover 2 _ (fun t _ => flushed1_2_eq V c t) cover1_2_arr

/-- The input array ends as it was entered: nothing writes an input back. -/
theorem scale_kept0 (c : Dev nD) : (dat1 (F := Ideal) V c).arrAt 0 cfg1.N = V c main_arg0 :=
  (dat1 (F := Ideal) V c).arrAt_in 0 rfl _

/-- The gate array likewise. -/
theorem scale_kept1 (c : Dev nD) : (dat1 (F := Ideal) V c).arrAt 1 cfg1.N = V c main_v18 :=
  (dat1 (F := Ideal) V c).arrAt_in 1 rfl _

end Cert.KernelIdeal.Hand

end
-- ==== Proof.ChainEq.lean ====
import proofs.«103365_j15401752724153_1_alg».proof.Proof.Chains
import Idealize.ShloMosaic.Lib.ValueLayout

/-! # The two host computations are the same function

The kernel program and the reference apply the same five stages to the pooled array. Three stages are
the same operations on both sides. Two differ in how they read a literal table:

* the column permutation and the wire duplication: one program gathers with the table as it stands
  (after a wrap of negative entries under a mask that is false everywhere), the other wraps the
  negative entries, gathers, and replaces by NaN every column whose index is outside the axis. Every
  entry of the literal permutation table lies in [0, 255] and every entry of the literal wire table in
  [0, 7], so the wrap changes nothing and no column is replaced;
* the table of signs: one program holds it as 8 by 256 and transposes it, the other holds it as
  256 by 8. The two literals are transposes of each other, entry by entry.

The facts about the literal tables are decided by evaluation on the tables' words. Nothing here depends
on the float instance. -/

namespace Cert.Chains

open Idealize.ShloMosaic Idealize.ShloMosaic.ValueIdx

/-! ## Facts about the literal tables -/

/-- The two programs hold the same permutation table. -/
theorem permLit_same : ∀ k : Fin 256, Cert.KernelIdeal.lit0 k = Cert.ReferenceIdeal.lit0 k := by decide +kernel

/-- The two programs hold the same wire table. -/
theorem wireLit_same : ∀ k : Fin 16, Cert.KernelIdeal.lit2 k = Cert.ReferenceIdeal.lit2 k := by decide +kernel

/-- No entry of the permutation table is negative: wrapping by 256 leaves it as it is. -/
theorem permLit_wrap : ∀ k : Fin 256,
    Scalar.select (IntOp.cmpi .slt (Cert.KernelIdeal.lit0 k) 0#32) (IntOp.addi (Cert.KernelIdeal.lit0 k) 256#32)
      (Cert.KernelIdeal.lit0 k) = Cert.KernelIdeal.lit0 k := by decide +kernel

/-- Every entry of the permutation table is in [0, 255]. -/
theorem permLit_inb : ∀ k : Fin 256,
    IntOp.andi (IntOp.cmpi .sge (Cert.KernelIdeal.lit0 k) 0#32) (IntOp.cmpi .sle (Cert.KernelIdeal.lit0 k) 255#32)
      = 1#1 := by decide +kernel

/-- No entry of the wire table is negative: wrapping by 8 leaves it as it is. -/
theorem wireLit_wrap : ∀ k : Fin 16,
    Scalar.select (IntOp.cmpi .slt (Cert.KernelIdeal.lit2 k) 0#32) (IntOp.addi (Cert.KernelIdeal.lit2 k) 8#32)
      (Cert.KernelIdeal.lit2 k) = Cert.KernelIdeal.lit2 k := by decide +kernel

/-- Every entry of the wire table is in [0, 7]. -/
theorem wireLit_inb : ∀ k : Fin 16,
    IntOp.andi (IntOp.cmpi .sge (Cert.KernelIdeal.lit2 k) 0#32) (IntOp.cmpi .sle (Cert.KernelIdeal.lit2 k) 7#32)
      = 1#1 := by decide +kernel

/-- The 8 by 256 table of signs at (c, r) is the 256 by 8 table of signs at (r, c), both row-major. -/
theorem signLit_transposed : ∀ (r : Fin 256) (c : Fin 8),
    Cert.KernelIdeal.lit1t (c.val * 256 + r.val) = Cert.ReferenceIdeal.lit1t (r.val * 8 + c.val) := by
  decide +kernel

/-- A conjunction of ones, started from one, is one. -/
theorem foldl_andi_one {ι : Type} (g : ι → BitVec 1) (hg : ∀ n, g n = 1#1) (l : List ι) :
    l.foldl (fun r n => IntOp.andi r (g n)) 1#1 = 1#1 := by
  induction l with
  | nil => rfl
  | cons n l ih => rw [List.foldl_cons, hg n]; exact ih

section
variable {F : FTy → Type} [FloatOps F] [Cert.KernelIdeal.Facts] [Cert.ReferenceIdeal.Facts]

/-! ## Stage 1: the same operations -/

theorem normalise_eq (p : FVec F Cert.KernelIdeal.S64x256 .f32) : normaliseK p = normaliseR p := rfl

/-! ## Stage 2: the column permutation -/

theorem permTable_eq : permTableK = permTableR := funext fun _ => permLit_same _

theorem permWrapK_eq : permWrapK = permTableK := funext fun _ => permLit_wrap _

theorem permWrapR_eq : permWrapR = permTableR := funext fun _ => rfl

theorem permIdx_eq : permIdxK = permIdxR := by
  unfold permIdxK permIdxR
  rw [permWrapK_eq, permWrapR_eq, permTable_eq]

/-- A start index of the kernel program's gather is an entry of the literal table. -/
theorem permIdxK_apply (m : Cert.KernelIdeal.S256x1.Idx) : ∃ k : Fin 256, permIdxK m = Cert.KernelIdeal.lit0 k :=
  ⟨_, congrFun permWrapK_eq _⟩

theorem permMaskK_eq : permMaskK = fun _ => 1#1 := by
  funext j
  unfold permMaskK Host.reduce
  refine foldl_andi_one _ (fun n => ?_) _
  obtain ⟨k, hk⟩ := permIdxK_apply (Cert.KernelIdeal.S256x1.rowMajor.symm n)
  show IntOp.andi (IntOp.cmpi .sge (permIdxK (Cert.KernelIdeal.S256x1.rowMajor.symm n)) 0#32)
    (IntOp.cmpi .sle (permIdxK (Cert.KernelIdeal.S256x1.rowMajor.symm n)) 255#32) = 1#1
  rw [hk]
  exact permLit_inb k

theorem permute_eq (a : FVec F Cert.KernelIdeal.S64x256 .f32) : permuteK a = permuteR a := by
  unfold permuteK permuteR
  rw [permMaskK_eq, permIdx_eq]
  funext j
  exact select_one _ _

/-! ## Stage 3: the table of signs -/

theorem signTable_eq :
    transpose (s := Cert.KernelIdeal.S8x256) Cert.KernelIdeal.S256x8 [1, 0] (signTableK (F := F))
      Cert.KernelIdeal.Facts₀.transposes_S8x256_S256x8_1_0 = signTableR := by
  funext j
  obtain ⟨r, c, rfl⟩ : ∃ (r : Fin 256) (c : Fin 8), j = ix2 r c := ⟨j 0, j 1, eq_ix2 j⟩
  rw [transpose_ix2_apply]
  show FloatOps.ofBits .f32 (Cert.KernelIdeal.lit1t (Cert.KernelIdeal.S8x256.rowMajor (ix2 c r)).val)
    = FloatOps.ofBits .f32 (Cert.ReferenceIdeal.lit1t (Cert.ReferenceIdeal.S256x8.rowMajor (ix2 r c)).val)
  rw [Shape.rowMajor_val_two, Shape.rowMajor_val_two]
  exact congrArg _ (signLit_transposed r c)

theorem squareDot_eq (b : FVec F Cert.KernelIdeal.S64x256 .f32) : squareDotK b = squareDotR b := by
  unfold squareDotK squareDotR
  rw [signTable_eq]
  rfl

/-! ## Stage 4: the wire duplication -/

theorem wireTable_eq : wireTableK = wireTableR := funext fun _ => wireLit_same _

theorem wireWrapK_eq : wireWrapK = wireTableK := funext fun _ => wireLit_wrap _

theorem wireWrapR_eq : wireWrapR = wireTableR := funext fun _ => rfl

theorem wireIdx_eq : wireIdxK = wireIdxR := by
  unfold wireIdxK wireIdxR
  rw [wireWrapK_eq, wireWrapR_eq, wireTable_eq]

/-- A start index of the kernel program's second gather is an entry of the literal wire table. -/
theorem wireIdxK_apply (m : Cert.KernelIdeal.S16x1.Idx) : ∃ k : Fin 16, wireIdxK m = Cert.KernelIdeal.lit2 k :=
  ⟨_, congrFun wireWrapK_eq _⟩

theorem wireMaskK_eq : wireMaskK = fun _ => 1#1 := by
  funext j
  unfold wireMaskK Host.reduce
  refine foldl_andi_one _ (fun n => ?_) _
  obtain ⟨k, hk⟩ := wireIdxK_apply (Cert.KernelIdeal.S16x1.rowMajor.symm n)
  show IntOp.andi (IntOp.cmpi .sge (wireIdxK (Cert.KernelIdeal.S16x1.rowMajor.symm n)) 0#32)
    (IntOp.cmpi .sle (wireIdxK (Cert.KernelIdeal.S16x1.rowMajor.symm n)) 7#32) = 1#1
  rw [hk]
  exact wireLit_inb k

theorem wires_eq (m : FVec F Cert.KernelIdeal.S64x8 .f32) : wiresK m = wiresR m := by
  unfold wiresK wiresR
  rw [wireMaskK_eq, wireIdx_eq]
  funext j
  exact select_one _ _

/-! ## Stage 5: the same operations -/

theorem tail_eq (q : FVec F Cert.KernelIdeal.S64x16 .f32) (w : FVec F Cert.KernelIdeal.S256x16 .f32) :
    tailK q w = tailR q w := rfl

/-! ## The whole computation -/

/-- The kernel program's gate and the reference's are the same function of the pooled array and the
    weights, at every float instance. -/
theorem chain_eq_any (p : FVec F Cert.KernelIdeal.S64x256 .f32) (w : FVec F Cert.KernelIdeal.S256x16 .f32) :
    chainK p w = chainR p w := by
  unfold chainK chainR
  rw [normalise_eq, permute_eq, squareDot_eq, wires_eq, tail_eq]

end

/-- At the ideal instance (the floats are extended reals). -/
theorem chain_eq [Cert.KernelIdeal.Facts] [Cert.ReferenceIdeal.Facts]
    (p : FVec Ideal Cert.KernelIdeal.S64x256 .f32) (w : FVec Ideal Cert.KernelIdeal.S256x16 .f32) :
    chainK p w = chainR p w := chain_eq_any p w

end Cert.Chains
-- ==== Proof.KIValue.lean ====
/-
  The result of the kernel program at the ideal instance, as one function of the two arguments: the second region
  leaves the input times the gate; the gate entering it is the host computation of what the first region left and of
  the weights; the first region leaves the mean over the two trailing axes of the input; and the kernel program's
  host computation is the reference's.
-/
import proofs.«103365_j15401752724153_1_alg».proof.Proof.KIChainRun
import proofs.«103365_j15401752724153_1_alg».proof.Proof.KIPoolValue
import proofs.«103365_j15401752724153_1_alg».proof.Proof.KIScaleValue
import proofs.«103365_j15401752724153_1_alg».proof.Proof.ChainEq
import proofs.«103365_j15401752724153_1_alg».proof.Proof.Gen.ReferenceIdeal

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The result array after the run: the input times the reference's gate of the input's plane means. -/
theorem result_eq (c : Dev nD) :
    W12 m ρ c (Proc.devRef .tc main_v19)
      = Cert.Chains.gateR (F := Ideal) (m ((c : Thread nD τ).loc main_arg0))
          (Cert.Chains.chainR (Cert.Chains.meanR (F := Ideal) (m ((c : Thread nD τ).loc main_arg0))) (m ((c : Thread nD τ).loc main_arg1))) := by
  have hpool : W2 m ρ c (Proc.devRef .tc main_v0) = Cert.Chains.meanR (F := Ideal) (m ((c : Thread nD τ).loc main_arg0)) := by
    rw [show W2 m ρ c (Proc.devRef .tc main_v0) = (dat0 (Vr0 m ρ) c).arrAt 1 cfg0.N from W2_arr m ρ c 1,
      pool_final (Vr0 m ρ) c, Vr0_main_arg0 m ρ c]
  rw [result_read m ρ c, scale_final (Vr1 m ρ) c, Vr1_main_arg0 m ρ c, gate_read m ρ c, hpool, Cert.Chains.chain_eq]

end Cert.KernelIdeal.Hand

end
-- ==== Proof.RefRun.lean ====
/- The reference program's @main as the list of its fifty host operations — the forty of @main itself and,
   at their call sites, the two of the padding function, the five of the row-norm function and the three of
   the rectifier — and its run read back: every weakly fair execution terminates with the result buffer at
   the operations' composed pure term of the two arguments' launch contents, the arguments unchanged. -/
import proofs.«103365_j15401752724153_1_alg».proof.Proof.Gen.ReferenceIdeal
import Idealize.ShloMosaic.Lib.StableHlo.Run
import proofs.«103365_j15401752724153_1_alg».proof.Proof.Chains

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]
/-- @main's operations, in order, each called function's body listed at its call over that call's buffers. -/
abbrev ops : List (HloOp τ sig (Elt F)) :=
  [ nullary main_c (fun i => lit0 (S256.rowMajor i)),
    nullary main_c_0 (constantI S256 1 0#1),
    nullary main_cst (fun i => FloatOps.ofBits .f32 (lit1 (S256x8.rowMajor i))),
    nullary main_c_1 (fun i => lit2 (S16.rowMajor i)),
    nullary main_c_2 (constantI S16 1 0#1),
    nullary main_cst_3 (constant S_ .f32 0x00000000#32),
    binary main_arg0 main_cst_3 main_v0 ((fun x v => Host.reduceAdd x v reducesTo_S64x256x56x56_S64x256_d2_3 h_S_) : (⟨S64x256x56x56, .f32⟩ : BufTy).Contents (Elt F) → (⟨S_, .f32⟩ : BufTy).Contents (Elt F) → (⟨S64x256, .f32⟩ : BufTy).Contents (Elt F)),
    nullary main_cst_4 (constant S_ .f32 0x45440000#32),
    unary main_cst_4 main_v1 (broadcastInDim S64x256 ![] bcast_S_S64x256 : (⟨S_, .f32⟩ : BufTy).Contents (Elt F) → (⟨S64x256, .f32⟩ : BufTy).Contents (Elt F)),
    binary main_v0 main_v1 main_v2 (Host.divf : (⟨S64x256, .f32⟩ : BufTy).Contents (Elt F) → (⟨S64x256, .f32⟩ : BufTy).Contents (Elt F) → (⟨S64x256, .f32⟩ : BufTy).Contents (Elt F)),
    nullary main_c_5 (constantI S_ 32 0#32),
    TRef.unary (.of main_c_5 : TRef sig ⟨S_, .i32⟩) main_call0.v0 (sitofp .f32),
    TRef.binary (.of main_v2 : TRef sig ⟨S64x256, .f32⟩) main_call0.v0 main_call0.v1 (fun x v => pad S64x256 ![0, 0] ![0, 0] ![0, 0] x v pads_S64x256_S64x256_000_000 h_S_),
    TRef.binary (.of main_v3 : TRef sig ⟨S64x256, .f32⟩) (.of main_v3 : TRef sig ⟨S64x256, .f32⟩) main_call1.v0 mulf,
    TRef.nullary main_call1.cst (constant S_ .f32 0x00000000#32),
    TRef.binary main_call1.v0 main_call1.cst main_call1.v1 (fun x v => Host.reduceAdd x v reducesTo_S64x256_S64_d1 h_S_),
    TRef.unary main_call1.v1 main_call1.v2 (broadcastInDim S64x1 ![0] bcast_S64_S64x1_0),
    TRef.unary main_call1.v2 main_call1.v3 Host.sqrt,
    unary main_v4 main_v5 (broadcastInDim S64x256 ![0, 1] bcast_S64x1_S64x256_0_1 : (⟨S64x1, .f32⟩ : BufTy).Contents (Elt F) → (⟨S64x256, .f32⟩ : BufTy).Contents (Elt F)),
    binary main_v3 main_v5 main_v6 (Host.divf : (⟨S64x256, .f32⟩ : BufTy).Contents (Elt F) → (⟨S64x256, .f32⟩ : BufTy).Contents (Elt F) → (⟨S64x256, .f32⟩ : BufTy).Contents (Elt F)),
    nullary main_c_6 (constantI S_ 32 256#32),
    unary main_c_6 main_v7 (broadcastInDim S256 ![] bcast_S_S256 : (⟨S_, .i32⟩ : BufTy).Contents (Elt F) → (⟨S256, .i32⟩ : BufTy).Contents (Elt F)),
    binary main_c main_v7 main_v8 (addi : (⟨S256, .i32⟩ : BufTy).Contents (Elt F) → (⟨S256, .i32⟩ : BufTy).Contents (Elt F) → (⟨S256, .i32⟩ : BufTy).Contents (Elt F)),
    ternary main_c_0 main_v8 main_c main_v9 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v9 main_v10 (broadcastInDim S256x1 ![0] bcast_S256_S256x1_0 : (⟨S256, .i32⟩ : BufTy).Contents (Elt F) → (⟨S256x1, .i32⟩ : BufTy).Contents (Elt F)),
    binary main_v6 main_v10 main_v11 ((fun x i => Host.gather gather_S64x256_S256x1_S64x256_0_1_n_n_1_1_641 x i) : (⟨S64x256, .f32⟩ : BufTy).Contents (Elt F) → (⟨S256x1, .i32⟩ : BufTy).Contents (Elt F) → (⟨S64x256, .f32⟩ : BufTy).Contents (Elt F)),
    binary main_v11 main_v11 main_v12 (mulf : (⟨S64x256, .f32⟩ : BufTy).Contents (Elt F) → (⟨S64x256, .f32⟩ : BufTy).Contents (Elt F) → (⟨S64x256, .f32⟩ : BufTy).Contents (Elt F)),
    binary main_v12 main_cst main_v13 ((fun l r => Host.dotGeneral dot_S64x256_S256x8_S64x8_1_0_0_1_n_n none l r) : (⟨S64x256, .f32⟩ : BufTy).Contents (Elt F) → (⟨S256x8, .f32⟩ : BufTy).Contents (Elt F) → (⟨S64x8, .f32⟩ : BufTy).Contents (Elt F)),
    nullary main_c_7 (constantI S_ 32 8#32),
    unary main_c_7 main_v14 (broadcastInDim S16 ![] bcast_S_S16 : (⟨S_, .i32⟩ : BufTy).Contents (Elt F) → (⟨S16, .i32⟩ : BufTy).Contents (Elt F)),
    binary main_c_1 main_v14 main_v15 (addi : (⟨S16, .i32⟩ : BufTy).Contents (Elt F) → (⟨S16, .i32⟩ : BufTy).Contents (Elt F) → (⟨S16, .i32⟩ : BufTy).Contents (Elt F)),
    ternary main_c_2 main_v15 main_c_1 main_v16 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_v16 main_v17 (broadcastInDim S16x1 ![0] bcast_S16_S16x1_0 : (⟨S16, .i32⟩ : BufTy).Contents (Elt F) → (⟨S16x1, .i32⟩ : BufTy).Contents (Elt F)),
    binary main_v13 main_v17 main_v18 ((fun x i => Host.gather gather_S64x8_S16x1_S64x16_0_1_n_n_1_1_641 x i) : (⟨S64x8, .f32⟩ : BufTy).Contents (Elt F) → (⟨S16x1, .i32⟩ : BufTy).Contents (Elt F) → (⟨S64x16, .f32⟩ : BufTy).Contents (Elt F)),
    TRef.nullary main_call2.cst (constant S_ .f32 0x00000000#32),
    TRef.unary main_call2.cst main_call2.v0 (broadcastInDim S64x16 ![] bcast_S_S64x16),
    TRef.binary (.of main_v18 : TRef sig ⟨S64x16, .f32⟩) main_call2.v0 main_call2.v1 maximumf,
    unary main_arg1 main_v20 ((transpose S16x256 [1, 0] · transposes_S256x16_S16x256_1_0) : (⟨S256x16, .f32⟩ : BufTy).Contents (Elt F) → (⟨S16x256, .f32⟩ : BufTy).Contents (Elt F)),
    binary main_v19 main_v20 main_v21 ((fun l r => Host.dotGeneral dot_S64x16_S16x256_S64x256_1_0_0_1_n_n none l r) : (⟨S64x16, .f32⟩ : BufTy).Contents (Elt F) → (⟨S16x256, .f32⟩ : BufTy).Contents (Elt F) → (⟨S64x256, .f32⟩ : BufTy).Contents (Elt F)),
    unary main_v21 main_v22 (Host.negf : (⟨S64x256, .f32⟩ : BufTy).Contents (Elt F) → (⟨S64x256, .f32⟩ : BufTy).Contents (Elt F)),
    unary main_v22 main_v23 (Host.exp : (⟨S64x256, .f32⟩ : BufTy).Contents (Elt F) → (⟨S64x256, .f32⟩ : BufTy).Contents (Elt F)),
    nullary main_cst_8 (constant S_ .f32 0x3F800000#32),
    unary main_cst_8 main_v24 (broadcastInDim S64x256 ![] bcast_S_S64x256 : (⟨S_, .f32⟩ : BufTy).Contents (Elt F) → (⟨S64x256, .f32⟩ : BufTy).Contents (Elt F)),
    binary main_v24 main_v23 main_v25 (addf : (⟨S64x256, .f32⟩ : BufTy).Contents (Elt F) → (⟨S64x256, .f32⟩ : BufTy).Contents (Elt F) → (⟨S64x256, .f32⟩ : BufTy).Contents (Elt F)),
    nullary main_cst_9 (constant S_ .f32 0x3F800000#32),
    unary main_cst_9 main_v26 (broadcastInDim S64x256 ![] bcast_S_S64x256 : (⟨S_, .f32⟩ : BufTy).Contents (Elt F) → (⟨S64x256, .f32⟩ : BufTy).Contents (Elt F)),
    binary main_v26 main_v25 main_v27 (Host.divf : (⟨S64x256, .f32⟩ : BufTy).Contents (Elt F) → (⟨S64x256, .f32⟩ : BufTy).Contents (Elt F) → (⟨S64x256, .f32⟩ : BufTy).Contents (Elt F)),
    unary main_v27 main_v28 (broadcastInDim S64x256x1x1 ![0, 1] bcast_S64x256_S64x256x1x1_0_1 : (⟨S64x256, .f32⟩ : BufTy).Contents (Elt F) → (⟨S64x256x1x1, .f32⟩ : BufTy).Contents (Elt F)),
    unary main_v28 main_v29 (broadcastInDim S64x256x56x56 ![0, 1, 2, 3] bcast_S64x256x1x1_S64x256x56x56_0_1_2_3 : (⟨S64x256x1x1, .f32⟩ : BufTy).Contents (Elt F) → (⟨S64x256x56x56, .f32⟩ : BufTy).Contents (Elt F)),
    binary main_arg0 main_v29 main_v30 (mulf : (⟨S64x256x56x56, .f32⟩ : BufTy).Contents (Elt F) → (⟨S64x256x56x56, .f32⟩ : BufTy).Contents (Elt F) → (⟨S64x256x56x56, .f32⟩ : BufTy).Contents (Elt F)) ]

-- fifty binds re-associated: the rewrite under the chain recurses once per statement
set_option maxRecDepth 4096 in
/-- @main is that straight line: the called functions' definitions unfolded at their calls, both sides are one
    chain of steps once sequencing is reassociated. -/
theorem main_eq (c : Dev nD) : main (F := F) c = seq ops := by
  simp only [main, fn_pad.body, fn_norm.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., binary_bufs_sub .., nullary_bufs_sub .., unary_bufs_sub .., binary_bufs_sub .., nullary_bufs_sub .., unary_bufs_sub .., binary_bufs_sub .., binary_bufs_sub .., nullary_bufs_sub .., binary_bufs_sub .., unary_bufs_sub .., unary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., ternary_bufs_sub .., unary_bufs_sub .., binary_bufs_sub .., nullary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub ..⟩

/-! ## The composed term, stage by stage

Each definition below is the literal composition of the printed operations of one stage; `refTerm` composes them. -/

/-- Stage one, x ↦ mean: the sum over the two trailing axes from zero, divided entrywise by 3136 = 56·56. -/
def meanT (x : FVec F S64x256x56x56 .f32) : FVec F S64x256 .f32 :=
  Host.divf (Host.reduceAdd x (constant S_ .f32 0x00000000#32) reducesTo_S64x256x56x56_S64x256_d2_3 h_S_) (broadcastInDim S64x256 ![] bcast_S_S64x256 (constant S_ .f32 0x45440000#32))

/-- Padding by nothing on every side (the fill value 0 converted from the integer 0): the array itself, entry by entry. -/
def padT (a : FVec F S64x256 .f32) : FVec F S64x256 .f32 :=
  pad S64x256 ![0, 0] ![0, 0] ![0, 0] a (sitofp .f32 (constantI S_ 32 0#32) : FVec F S_ .f32) pads_S64x256_S64x256_000_000 h_S_

/-- The Euclidean norm of each row, as a column: the square root of the sum over the row of the squares. -/
def normT (p : FVec F S64x256 .f32) : FVec F S64x1 .f32 :=
  Host.sqrt (broadcastInDim S64x1 ![0] bcast_S64_S64x1_0 (Host.reduceAdd (mulf p p) (constant S_ .f32 0x00000000#32) reducesTo_S64x256_S64_d1 h_S_))

/-- Each row divided by its Euclidean norm. -/
def unitT (p : FVec F S64x256 .f32) : FVec F S64x256 .f32 :=
  Host.divf p (broadcastInDim S64x256 ![0, 1] bcast_S64x1_S64x256_0_1 (normT p))

/-- The column index table of the permutation: the literal table, an entry replaced by itself plus 256 where a
    mask that is false everywhere says so (so nowhere), as a one-column array. -/
def permIdx : IVec S256x1 32 :=
  broadcastInDim S256x1 ![0] bcast_S256_S256x1_0 (select (constantI S256 1 0#1) (addi ((fun i => lit0 (S256.rowMajor i)) : IVec S256 32) (broadcastInDim S256 ![] bcast_S_S256 (constantI S_ 32 256#32))) ((fun i => lit0 (S256.rowMajor i)) : IVec S256 32))

/-- The columns gathered through that table. -/
def permT (u : FVec F S64x256 .f32) : FVec F S64x256 .f32 :=
  Host.gather gather_S64x256_S256x1_S64x256_0_1_n_n_1_1_641 u permIdx

/-- The entrywise square. -/
def sqT (g : FVec F S64x256 .f32) : FVec F S64x256 .f32 := mulf g g

/-- The literal 256 × 8 table of signs ±1, as floats. -/
def signTable : FVec F S256x8 .f32 := fun i => FloatOps.ofBits .f32 (lit1 (S256x8.rowMajor i))

/-- The matrix product with the sign table, contracting the 256 columns. -/
def projT (s : FVec F S64x256 .f32) : FVec F S64x8 .f32 :=
  Host.dotGeneral dot_S64x256_S256x8_S64x8_1_0_0_1_n_n none s signTable

/-- The column index table 0 … 7, 0 … 7, an entry replaced by itself plus 8 where a mask that is false everywhere
    says so (so nowhere), as a one-column array. -/
def dupIdx : IVec S16x1 32 :=
  broadcastInDim S16x1 ![0] bcast_S16_S16x1_0 (select (constantI S16 1 0#1) (addi ((fun i => lit2 (S16.rowMajor i)) : IVec S16 32) (broadcastInDim S16 ![] bcast_S_S16 (constantI S_ 32 8#32))) ((fun i => lit2 (S16.rowMajor i)) : IVec S16 32))

/-- The eight columns gathered through that table: sixteen columns, the eight twice. -/
def dupT (p : FVec F S64x8 .f32) : FVec F S64x16 .f32 :=
  Host.gather gather_S64x8_S16x1_S64x16_0_1_n_n_1_1_641 p dupIdx

/-- The rectifier: the entrywise maximum with zero. -/
def reluT (z : FVec F S64x16 .f32) : FVec F S64x16 .f32 :=
  maximumf z (broadcastInDim S64x16 ![] bcast_S_S64x16 (constant S_ .f32 0x00000000#32))

/-- The matrix product with the transposed weights, contracting the sixteen columns. -/
def fcT (r : FVec F S64x16 .f32) (w : FVec F S256x16 .f32) : FVec F S64x256 .f32 :=
  Host.dotGeneral dot_S64x16_S16x256_S64x256_1_0_0_1_n_n none r (transpose S16x256 [1, 0] w transposes_S256x16_S16x256_1_0)

/-- The logistic function entrywise, as 1 / (1 + exp (−z)). -/
def sigmT (z : FVec F S64x256 .f32) : FVec F S64x256 .f32 :=
  Host.divf (broadcastInDim S64x256 ![] bcast_S_S64x256 (constant S_ .f32 0x3F800000#32))
    (addf (broadcastInDim S64x256 ![] bcast_S_S64x256 (constant S_ .f32 0x3F800000#32)) (Host.exp (Host.negf z)))

/-- Stage two, (mean, weights) ↦ gate: rows normalized, columns permuted, squared, projected on the signs, doubled,
    rectified, multiplied by the transposed weights, passed through the logistic function. -/
def chainT (a : FVec F S64x256 .f32) (w : FVec F S256x16 .f32) : FVec F S64x256 .f32 :=
  sigmT (fcT (reluT (dupT (projT (sqT (permT (unitT (padT a))))))) w)

/-- Stage three, (x, gate) ↦ result: the gate repeated along the two trailing axes, times x entrywise. -/
def gateT (x : FVec F S64x256x56x56 .f32) (s : FVec F S64x256 .f32) : FVec F S64x256x56x56 .f32 :=
  mulf x (broadcastInDim S64x256x56x56 ![0, 1, 2, 3] bcast_S64x256x1x1_S64x256x56x56_0_1_2_3 (broadcastInDim S64x256x1x1 ![0, 1] bcast_S64x256_S64x256x1x1_0_1 s))

/-- The reference's result as one pure term of its two arguments: the composition of @main's operations. -/
def refTerm (x : FVec F S64x256x56x56 .f32) (w : FVec F S256x16 .f32) : FVec F S64x256x56x56 .f32 :=
  gateT x (chainT (meanT x) w)

theorem refTerm_def (x : FVec F S64x256x56x56 .f32) (w : FVec F S256x16 .f32) :
    refTerm x w = gateT x (chainT (meanT x) w) := rfl

/-- The composed term is the reference's three stages one after the other: the mean, the gate computed from the
    mean and the weights, the product of the input with the gate — the same operations in the same order, so
    the two sides agree by unfolding the stages' definitions. -/
theorem refTerm_eq (x : FVec F S64x256x56x56 .f32) (w : FVec F S256x16 .f32) :
    refTerm x w = Cert.Chains.gateR x (Cert.Chains.chainR (Cert.Chains.meanR x) w) := rfl

/-- The contents of the result buffer after the operations, from any contents: the composed term of the two
    arguments' contents. Each operation's result at its own buffer is its function's value and at any other
    buffer what was there; the typed references' transports are the identity at these literal references. -/
theorem out_eq (V : Valuation τ sig (Elt F)) :
    after ops V (main_v30 : DevRef τ sig) = refTerm (V (main_arg0 : DevRef τ sig)) (V (main_arg1 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

/-- On every device, for any float values, from any memory with zero counters: every weakly fair execution of
    @main terminates with the result at the operations' composed term of the arguments and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v30) = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v30).trans (out_eq _),
      (h c main_arg0).trans (arg0_eq _),
      (h c main_arg1).trans (arg1_eq _)⟩)
    (run_seq scopedRefs_eq scopedSems_eq defs main (fun _ => ops) main_eq (fun _ => ops_sub) m ρ)

end Cert.ReferenceIdeal.RefValue

end
-- ==== Proof.lean ====
/-
  The equivalence of a squeeze-and-excite block written with two tiled kernels and its plain array reference, over
  the extended reals.  Input x : [64, 256, 56, 56], weights W : [256, 16].

  Both programs compute  x · s  with the gate s constant along the two trailing axes, s = g(mean of x over the two
  trailing axes, W), where g normalises each row of the 64 × 256 matrix of means by its Euclidean norm, permutes the
  columns by a fixed table, squares, multiplies by a fixed table of signs, duplicates the eight columns to sixteen,
  takes the maximum with zero, multiplies by the transposed weights and applies the logistic function
  1 / (1 + exp (−z)).

  The kernel program computes the means with a first tiled kernel — each grid point sums an 8 × 128 block of planes
  over the last axis, then the next, and divides by 3136 — where the reference sums both axes at once and divides by
  3136: the same finite sum of extended reals, regrouped (addition of extended reals is commutative and associative;
  no finiteness of the input is used).  Its g differs from the reference's in two places that are equalities of
  literal tables: its column selections guard against indices outside the axis, and every index of the tables is
  inside; its table of signs is stored transposed and transposed back.  Its second tiled kernel multiplies blocks of
  32 of the 56 rows; the last block of each plane overhangs the array by eight rows, which are never written back.

  The three programs terminate without a fault and leave their arguments unchanged; the idealised kernel program is
  the word-level one read at the ideal instance (the idealisation rewrote nothing).
-/
import proofs.«103365_j15401752724153_1_alg».proof.Defs
import proofs.«103365_j15401752724153_1_alg».proof.Proof.KRun
import proofs.«103365_j15401752724153_1_alg».proof.Proof.KIValue
import proofs.«103365_j15401752724153_1_alg».proof.Proof.RefRun
import proofs.«103365_j15401752724153_1_alg».proof.Proof.Gen.Kernel
import proofs.«103365_j15401752724153_1_alg».proof.Proof.Gen.KernelIdeal
import proofs.«103365_j15401752724153_1_alg».proof.Proof.Gen.ReferenceIdeal
import proofs.«103365_j15401752724153_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Hand.frame m ρ

/-- The idealised kernel program runs and keeps its arguments. -/
theorem frame_ki : Cert.frame_KernelIdeal := fun m ρ _ => Cert.KernelIdeal.Hand.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

/-- Run from memories agreeing on the arguments, both idealised programs end with the same result: the input
    times the gate of its plane means. -/
theorem algebraic : Cert.algebraic_KernelIdeal_ReferenceIdeal := by
  intro m ρ m' ρ' _ hagree
  refine ⟨fun c => Cert.Chains.gateR (F := Ideal) (m ((c.tc : Thread Cert.KernelIdeal.nD Cert.KernelIdeal.τ).loc Cert.KernelIdeal.main_arg0))
      (Cert.Chains.chainR (Cert.Chains.meanR (F := Ideal) (m ((c.tc : Thread Cert.KernelIdeal.nD Cert.KernelIdeal.τ).loc Cert.KernelIdeal.main_arg0)))
        (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.Hand.run_all (F := Ideal) m ρ)
    · exact (h c _ (Cert.KernelIdeal.Hand.mem_uc Cert.KernelIdeal.main_v19 (by decide))).trans (Cert.KernelIdeal.Hand.result_eq m ρ c)
    · exact (h c _ (Cert.KernelIdeal.Hand.mem_uc Cert.KernelIdeal.main_arg0 (by decide))).trans (Cert.KernelIdeal.Hand.W12_main_arg0 m ρ c)
    · exact (h c _ (Cert.KernelIdeal.Hand.mem_uc Cert.KernelIdeal.main_arg1 (by decide))).trans (Cert.KernelIdeal.Hand.W12_main_arg1 m ρ c)
  · refine (θ_run Cert.ReferenceIdeal.defs _ _).mono (fun r h c => ⟨(h c).1.trans ?_, (h c).2⟩)
      (Cert.ReferenceIdeal.RefValue.run (F := Ideal) m' ρ')
    rw [Cert.ReferenceIdeal.RefValue.refTerm_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
